-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x2048 : Shape := ⟨2, ![64, 2048]⟩
abbrev S131072 : Shape := ⟨1, ![131072]⟩
abbrev S400x512 : Shape := ⟨2, ![400, 512]⟩
abbrev S400 : Shape := ⟨1, ![400]⟩
abbrev S300x400 : Shape := ⟨2, ![300, 400]⟩
abbrev S300 : Shape := ⟨1, ![300]⟩
abbrev S2x302 : Shape := ⟨2, ![2, 302]⟩
abbrev S2 : Shape := ⟨1, ![2]⟩
abbrev S1x302 : Shape := ⟨2, ![1, 302]⟩
abbrev S1 : Shape := ⟨1, ![1]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S131072 : S_.BroadcastsInDim S131072 (![] : Fin 0 → Fin S131072.rank)
  reducesTo_S131072_S_d0 : S131072.ReducesTo [0] S_
  bcast_S_S400x512 : S_.BroadcastsInDim S400x512 (![] : Fin 0 → Fin S400x512.rank)
  reducesTo_S400x512_S_d0_1 : S400x512.ReducesTo [0, 1] S_
  bcast_S_S400 : S_.BroadcastsInDim S400 (![] : Fin 0 → Fin S400.rank)
  reducesTo_S400_S_d0 : S400.ReducesTo [0] S_
  bcast_S_S300x400 : S_.BroadcastsInDim S300x400 (![] : Fin 0 → Fin S300x400.rank)
  reducesTo_S300x400_S_d0_1 : S300x400.ReducesTo [0, 1] S_
  bcast_S_S300 : S_.BroadcastsInDim S300 (![] : Fin 0 → Fin S300.rank)
  reducesTo_S300_S_d0 : S300.ReducesTo [0] S_
  bcast_S_S2x302 : S_.BroadcastsInDim S2x302 (![] : Fin 0 → Fin S2x302.rank)
  reducesTo_S2x302_S_d0_1 : S2x302.ReducesTo [0, 1] S_
  bcast_S_S2 : S_.BroadcastsInDim S2 (![] : Fin 0 → Fin S2.rank)
  reducesTo_S2_S_d0 : S2.ReducesTo [0] S_
  bcast_S_S1x302 : S_.BroadcastsInDim S1x302 (![] : Fin 0 → Fin S1x302.rank)
  reducesTo_S1x302_S_d0_1 : S1x302.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S2x302 .f32) (main_arg9 : FVec F S2 .f32) (main_arg10 : FVec F S1x302 .f32) (main_arg11 : FVec F S1 .f32) (main_v33 : IVec S_ 1) : IVec S_ 1 :=
  let main_v34 : FVec F S2x302 .f32 := Host.absf main_arg8
  let main_cst_12 : FVec F S_ .f32 := constant S_ .f32 0x7F800000#32
  let main_v35 : FVec F S2x302 .f32 := broadcastInDim S2x302 ![] bcast_S_S2x302 main_cst_12
  let main_v36 : IVec S2x302 1 := cmpf .olt main_v34 main_v35
  let main_c_13 : IVec S_ 1 := constantI S_ 1 1#1
  let main_v37 : IVec S_ 1 := (fun x v => Host.reduce IntOp.andi x v reducesTo_S2x302_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S1x302 .f32 := Host.absf main_arg10
  let main_cst_16 : FVec F S_ .f32 := constant S_ .f32 0x7F800000#32
  let main_v45 : FVec F S1x302 .f32 := broadcastInDim S1x302 ![] bcast_S_S1x302 main_cst_16
  let main_v46 : IVec S1x302 1 := cmpf .olt main_v44 main_v45
  let main_c_17 : IVec S_ 1 := constantI S_ 1 1#1
  let main_v47 : IVec S_ 1 := (fun x v => Host.reduce IntOp.andi x v reducesTo_S1x302_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S400 .f32) (main_arg6 : FVec F S300x400 .f32) (main_arg7 : FVec F S300 .f32) (main_arg8 : FVec F S2x302 .f32) (main_arg9 : FVec F S2 .f32) (main_arg10 : FVec F S1x302 .f32) (main_arg11 : FVec F S1 .f32) (main_v13 : IVec S_ 1) (main_v16 : IVec S400x512 1) : IVec S_ 1 :=
  let main_c_5 : IVec S_ 1 := constantI S_ 1 1#1
  let main_v17 : IVec S_ 1 := (fun x v => Host.reduce IntOp.andi x v reducesTo_S400x512_S_d0_1 h_S_) main_v16 main_c_5
  let main_v18 : IVec S_ 1 := andi main_v13 main_v17
  let main_v19 : FVec F S400 .f32 := Host.absf main_arg5
  let main_cst_6 : FVec F S_ .f32 := constant S_ .f32 0x7F800000#32
  let main_v20 : FVec F S400 .f32 := broadcastInDim S400 ![] bcast_S_S400 main_cst_6
  let main_v21 : IVec S400 1 := cmpf .olt main_v19 main_v20
  let main_c_7 : IVec S_ 1 := constantI S_ 1 1#1
  let main_v22 : IVec S_ 1 := (fun x v => Host.reduce IntOp.andi x v reducesTo_S400_S_d0 h_S_) main_v21 main_c_7
  let main_v23 : IVec S_ 1 := andi main_v18 main_v22
  let main_v24 : FVec F S300x400 .f32 := Host.absf main_arg6
  let main_cst_8 : FVec F S_ .f32 := constant S_ .f32 0x7F800000#32
  let main_v25 : FVec F S300x400 .f32 := broadcastInDim S300x400 ![] bcast_S_S300x400 main_cst_8
  let main_v26 : IVec S300x400 1 := cmpf .olt main_v24 main_v25
  let main_c_9 : IVec S_ 1 := constantI S_ 1 1#1
  let main_v27 : IVec S_ 1 := (fun x v => Host.reduce IntOp.andi x v reducesTo_S300x400_S_d0_1 h_S_) main_v26 main_c_9
  let main_v28 : IVec S_ 1 := andi main_v23 main_v27
  let main_v29 : FVec F S300 .f32 := Host.absf main_arg7
  let main_cst_10 : FVec F S_ .f32 := constant S_ .f32 0x7F800000#32
  let main_v30 : FVec F S300 .f32 := broadcastInDim S300 ![] bcast_S_S300 main_cst_10
  let main_v31 : IVec S300 1 := cmpf .olt main_v29 main_v30
  let main_c_11 : IVec S_ 1 := constantI S_ 1 1#1
  let main_v32 : IVec S_ 1 := (fun x v => Host.reduce IntOp.andi x v reducesTo_S300_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S64x2048x512 .f32) (main_arg1 : FVec F S64x2048 .f32) (main_arg2 : IVec S64x2048 32) (main_arg3 : FVec F S131072 .f32) (main_arg4 : FVec F S400x512 .f32) (main_arg5 : FVec F S400 .f32) (main_arg6 : FVec F S300x400 .f32) (main_arg7 : FVec F S300 .f32) (main_arg8 : FVec F S2x302 .f32) (main_arg9 : FVec F S2 .f32) (main_arg10 : FVec F S1x302 .f32) (main_arg11 : FVec F S1 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S131072 .f32 := Host.absf main_arg3
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S400x512 .f32 := Host.absf main_arg4
  let main_cst_4 : FVec F S_ .f32 := constant S_ .f32 0x7F800000#32
  let main_v15 : FVec F S400x512 .f32 := broadcastInDim S400x512 ![] bcast_S_S400x512 main_cst_4
  let main_v16 : IVec S400x512 1 := cmpf .olt main_v14 main_v15
  fn_part1 (F := F) main_arg5 main_arg6 main_arg7 main_arg8 main_arg9 main_arg10 main_arg11 main_v13 main_v16
-- ==== Kernel.lean ====
abbrev S64x2048x512 : Shape := ⟨3, ![64, 2048, 512]⟩
abbrev S64x2048 : Shape := ⟨2, ![64, 2048]⟩
abbrev S131072 : Shape := ⟨1, ![131072]⟩
abbrev S400x512 : Shape := ⟨2, ![400, 512]⟩
abbrev S400 : Shape := ⟨1, ![400]⟩
abbrev S300x400 : Shape := ⟨2, ![300, 400]⟩
abbrev S300 : Shape := ⟨1, ![300]⟩
abbrev S2x302 : Shape := ⟨2, ![2, 302]⟩
abbrev S2 : Shape := ⟨1, ![2]⟩
abbrev S1x302 : Shape := ⟨2, ![1, 302]⟩
abbrev S1 : Shape := ⟨1, ![1]⟩
abbrev S131072x512 : Shape := ⟨2, ![131072, 512]⟩
abbrev S131072x1 : Shape := ⟨2, ![131072, 1]⟩
abbrev S131072x3 : Shape := ⟨2, ![131072, 3]⟩
abbrev S512x400 : Shape := ⟨2, ![512, 400]⟩
abbrev S400x300 : Shape := ⟨2, ![400, 300]⟩
abbrev S3x302 : Shape := ⟨2, ![3, 302]⟩
abbrev S302x3 : Shape := ⟨2, ![302, 3]⟩
abbrev S3 : Shape := ⟨1, ![3]⟩
abbrev S1x3 : Shape := ⟨2, ![1, 3]⟩
abbrev S1x400 : Shape := ⟨2, ![1, 400]⟩
abbrev S1x300 : Shape := ⟨2, ![1, 300]⟩
abbrev S131072x4 : Shape := ⟨2, ![131072, 4]⟩
abbrev S4096x512 : Shape := ⟨2, ![4096, 512]⟩
abbrev S4096x3 : Shape := ⟨2, ![4096, 3]⟩
abbrev S4096x4 : Shape := ⟨2, ![4096, 4]⟩
abbrev S4096x400 : Shape := ⟨2, ![4096, 400]⟩
abbrev S4096x300 : Shape := ⟨2, ![4096, 300]⟩
abbrev S4096x1 : Shape := ⟨2, ![4096, 1]⟩
abbrev S4096x302 : Shape := ⟨2, ![4096, 302]⟩
abbrev S4096x2 : Shape := ⟨2, ![4096, 2]⟩
abbrev S64x2048x4 : Shape := ⟨3, ![64, 2048, 4]⟩

abbrev nBuf : Space → Nat
  | .hbm => 30
  | .vmem => 12
  | .smem => 0
  | _ => 0

abbrev bufTy : (tb : Table) → Fin (tcTables nBuf tb) → BufTy
  | .hbm, ⟨0, _⟩ => ⟨S64x2048x512, .f32⟩
  | .hbm, ⟨1, _⟩ => ⟨S64x2048, .f32⟩
  | .hbm, ⟨2, _⟩ => ⟨S64x2048, .i32⟩
  | .hbm, ⟨3, _⟩ => ⟨S131072, .f32⟩
  | .hbm, ⟨4, _⟩ => ⟨S400x512, .f32⟩
  | .hbm, ⟨5, _⟩ => ⟨S400, .f32⟩
  | .hbm, ⟨6, _⟩ => ⟨S300x400, .f32⟩
  | .hbm, ⟨7, _⟩ => ⟨S300, .f32⟩
  | .hbm, ⟨8, _⟩ => ⟨S2x302, .f32⟩
  | .hbm, ⟨9, _⟩ => ⟨S2, .f32⟩
  | .hbm, ⟨10, _⟩ => ⟨S1x302, .f32⟩
  | .hbm, ⟨11, _⟩ => ⟨S1, .f32⟩
  | .hbm, ⟨12, _⟩ => ⟨S131072x512, .f32⟩
  | .hbm, ⟨13, _⟩ => ⟨S131072, .f32⟩
  | .hbm, ⟨14, _⟩ => ⟨S131072, .i32⟩
  | .hbm, ⟨15, _⟩ => ⟨S131072, .f32⟩
  | .hbm, ⟨16, _⟩ => ⟨S131072x1, .f32⟩
  | .hbm, ⟨17, _⟩ => ⟨S131072x1, .f32⟩
  | .hbm, ⟨18, _⟩ => ⟨S131072x1, .f32⟩
  | .hbm, ⟨19, _⟩ => ⟨S131072x3, .f32⟩
  | .hbm, ⟨20, _⟩ => ⟨S512x400, .f32⟩
  | .hbm, ⟨21, _⟩ => ⟨S400x300, .f32⟩
  | .hbm, ⟨22, _⟩ => ⟨S3x302, .f32⟩
  | .hbm, ⟨23, _⟩ => ⟨S302x3, .f32⟩
  | .hbm, ⟨24, _⟩ => ⟨S3, .f32⟩
  | .hbm, ⟨25, _⟩ => ⟨S1x3, .f32⟩
  | .hbm, ⟨26, _⟩ => ⟨S1x400, .f32⟩
  | .hbm, ⟨27, _⟩ => ⟨S1x300, .f32⟩
  | .hbm, ⟨28, _⟩ => ⟨S131072x4, .f32⟩
  | .hbm, ⟨29, _⟩ => ⟨S64x2048x4, .f32⟩
  | .local _ .vmem, ⟨0, _⟩ => ⟨S4096x512, .f32⟩
  | .local _ .vmem, ⟨1, _⟩ => ⟨S4096x512, .f32⟩
  | .local _ .vmem, ⟨2, _⟩ => ⟨S4096x3, .f32⟩
  | .local _ .vmem, ⟨3, _⟩ => ⟨S4096x3, .f32⟩
  | .local _ .vmem, ⟨4, _⟩ => ⟨S512x400, .f32⟩
  | .local _ .vmem, ⟨5, _⟩ => ⟨S1x400, .f32⟩
  | .local _ .vmem, ⟨6, _⟩ => ⟨S400x300, .f32⟩
  | .local _ .vmem, ⟨7, _⟩ => ⟨S1x300, .f32⟩
  | .local _ .vmem, ⟨8, _⟩ => ⟨S302x3, .f32⟩
  | .local _ .vmem, ⟨9, _⟩ => ⟨S1x3, .f32⟩
  | .local _ .vmem, ⟨10, _⟩ => ⟨S4096x4, .f32⟩
  | .local _ .vmem, ⟨11, _⟩ => ⟨S4096x4, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S400x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S302x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S64x2048x512_S131072x512 : S64x2048x512.ShapeCasts S131072x512
  shapeCasts_S64x2048_S131072 : S64x2048.ShapeCasts S131072
  bcast_S131072_S131072x1_0 : S131072.BroadcastsInDim S131072x1 (![0] : Fin 1 → Fin S131072x1.rank)
  concatenates_S131072x1_S131072x1_S131072x1_S131072x3_d1 : Shape.Concatenates [S131072x1, S131072x1, S131072x1] S131072x3 1
  transposes_S400x512_S512x400_1_0 : S400x512.Transposes [1, 0] S512x400
  transposes_S300x400_S400x300_1_0 : S300x400.Transposes [1, 0] S400x300
  concatenates_S2x302_S1x302_S3x302_d0 : Shape.Concatenates [S2x302, S1x302] S3x302 0
  transposes_S3x302_S302x3_1_0 : S3x302.Transposes [1, 0] S302x3
  concatenates_S2_S1_S3_d0 : Shape.Concatenates [S2, S1] S3 0
  shapeCasts_S3_S1x3 : S3.ShapeCasts S1x3
  shapeCasts_S400_S1x400 : S400.ShapeCasts S1x400
  shapeCasts_S300_S1x300 : S300.ShapeCasts S1x300
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  bitsLt_bf16_f32 : FTy.bits .bf16 < FTy.bits .f32
  inb_S512x400_S512x400_0_0 : ∀ a, (![0, 0] : Fin 2 → Nat) a + S512x400.size a ≤ S512x400.size a
  h_S512x400 : 0 < S512x400.numel
  shapeCasts_S512x400_S512x400 : S512x400.ShapeCasts S512x400
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S4096x400 : S1x400.Broadcasts S4096x400
  inb_S400x300_S400x300_0_0 : ∀ a, (![0, 0] : Fin 2 → Nat) a + S400x300.size a ≤ S400x300.size a
  h_S400x300 : 0 < S400x300.numel
  shapeCasts_S400x300_S400x300 : S400x300.ShapeCasts S400x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S4096x300 : S1x300.Broadcasts S4096x300
  inb_S4096x3_S4096x1_0_0 : ∀ a, (![0, 0] : Fin 2 → Nat) a + S4096x1.size a ≤ S4096x3.size a
  h_S4096x1 : 0 < S4096x1.numel
  shapeCasts_S4096x1_S4096x1 : S4096x1.ShapeCasts S4096x1
  inb_S4096x3_S4096x1_0_1 : ∀ a, (![0, 1] : Fin 2 → Nat) a + S4096x1.size a ≤ S4096x3.size a
  inb_S4096x3_S4096x1_0_2 : ∀ a, (![0, 2] : Fin 2 → Nat) a + S4096x1.size a ≤ S4096x3.size a
  concatenates_S4096x300_S4096x1_S4096x1_S4096x302_d1 : Shape.Concatenates [S4096x300, S4096x1, S4096x1] S4096x302 1
  inb_S302x3_S302x3_0_0 : ∀ a, (![0, 0] : Fin 2 → Nat) a + S302x3.size a ≤ S302x3.size a
  h_S302x3 : 0 < S302x3.numel
  shapeCasts_S302x3_S302x3 : S302x3.ShapeCasts S302x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4096x3 : S1x3.Broadcasts S4096x3
  slices_S4096x3_o0_0_S4096x2 : S4096x3.Slices ![0, 0] S4096x2
  slices_S4096x3_o0_2_S4096x1 : S4096x3.Slices ![0, 2] S4096x1
  slices_S4096x2_o0_0_S4096x1 : S4096x2.Slices ![0, 0] S4096x1
  slices_S4096x2_o0_1_S4096x1 : S4096x2.Slices ![0, 1] S4096x1
  concatenates_S4096x2_S4096x1_S4096x1_S4096x4_d1 : Shape.Concatenates [S4096x2, S4096x1, S4096x1] S4096x4 1
  inb_S4096x4_S4096x4_0_0 : ∀ a, (![0, 0] : Fin 2 → Nat) a + S4096x4.size a ≤ S4096x4.size a
  h_S4096x4 : 0 < S4096x4.numel
  shapeCasts_S131072x4_S64x2048x4 : S131072x4.ShapeCasts S64x2048x4
  dot_S4096x512_S512x400_S4096x400_1_0_0_1_n_n_wf : DotDims.WF S4096x512 S512x400 S4096x400 [1] [0] [0] [1] [] []
  dot_S4096x400_S400x300_S4096x300_1_0_0_1_n_n_wf : DotDims.WF S4096x400 S400x300 S4096x300 [1] [0] [0] [1] [] []
  dot_S4096x302_S302x3_S4096x3_1_0_0_1_n_n_wf : DotDims.WF S4096x302 S302x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S131072x3.size a
  hwx0_1 : ∀ i : grid0.Coords, EltTy.bits .f32 = 32 ∨ (Rect.block (s := S131072x3) S4096x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x400.size a ≤ S512x400.size a
  hwx0_2 : ∀ i : grid0.Coords, EltTy.bits .f32 = 32 ∨ (Rect.block (s := S512x400) S512x400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x400.size a ≤ S1x400.size a
  hwx0_3 : ∀ i : grid0.Coords, EltTy.bits .f32 = 32 ∨ (Rect.block (s := S1x400) S1x400.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S400x300.size a ≤ S400x300.size a
  hwx0_4 : ∀ i : grid0.Coords, EltTy.bits .f32 = 32 ∨ (Rect.block (s := S400x300) S400x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x300.size a ≤ S1x300.size a
  hwx0_5 : ∀ i : grid0.Coords, EltTy.bits .f32 = 32 ∨ (Rect.block (s := S1x300) S1x300.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S302x3.size a ≤ S302x3.size a
  hwx0_6 : ∀ i : grid0.Coords, EltTy.bits .f32 = 32 ∨ (Rect.block (s := S302x3) S302x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3.size a ≤ S1x3.size a
  hwx0_7 : ∀ i : grid0.Coords, EltTy.bits .f32 = 32 ∨ (Rect.block (s := S1x3) S1x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x4.size a ≤ S131072x4.size a
  hwx0_8 : ∀ i : grid0.Coords, EltTy.bits .f32 = 32 ∨ (Rect.block (s := S131072x4) S4096x4.size (cc0_transform_8 i) (hinb0_8 i)).WholeWords (EltTy.packing .f32)

variable [Facts₀]

def dot_S4096x512_S512x400_S4096x400_1_0_0_1_n_n : DotDims S4096x512 S512x400 S4096x400 where
  lhsContracting := [1]
  rhsContracting := [0]
  lhsNonContracting := [0]
  rhsNonContracting := [1]
  lhsBatch := []
  rhsBatch := []
  wf := dot_S4096x512_S512x400_S4096x400_1_0_0_1_n_n_wf
def dot_S4096x400_S400x300_S4096x300_1_0_0_1_n_n : DotDims S4096x400 S400x300 S4096x300 where
  lhsContracting := [1]
  rhsContracting := [0]
  lhsNonContracting := [0]
  rhsNonContracting := [1]
  lhsBatch := []
  rhsBatch := []
  wf := dot_S4096x400_S400x300_S4096x300_1_0_0_1_n_n_wf
def dot_S4096x302_S302x3_S4096x3_1_0_0_1_n_n : DotDims S4096x302 S302x3 S4096x3 where
  lhsContracting := [1]
  rhsContracting := [0]
  lhsNonContracting := [0]
  rhsNonContracting := [1]
  lhsBatch := []
  rhsBatch := []
  wf := dot_S4096x302_S302x3_S4096x3_1_0_0_1_n_n_wf

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S400x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S302x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S4096x4.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x2048x512 : Shape := ⟨3, ![64, 2048, 512]⟩
abbrev S64x2048 : Shape := ⟨2, ![64, 2048]⟩
abbrev S131072 : Shape := ⟨1, ![131072]⟩
abbrev S400x512 : Shape := ⟨2, ![400, 512]⟩
abbrev S400 : Shape := ⟨1, ![400]⟩
abbrev S300x400 : Shape := ⟨2, ![300, 400]⟩
abbrev S300 : Shape := ⟨1, ![300]⟩
abbrev S2x302 : Shape := ⟨2, ![2, 302]⟩
abbrev S2 : Shape := ⟨1, ![2]⟩
abbrev S1x302 : Shape := ⟨2, ![1, 302]⟩
abbrev S1 : Shape := ⟨1, ![1]⟩
abbrev S131072x512 : Shape := ⟨2, ![131072, 512]⟩
abbrev S512x400 : Shape := ⟨2, ![512, 400]⟩
abbrev S131072x400 : Shape := ⟨2, ![131072, 400]⟩
abbrev S1x400 : Shape := ⟨2, ![1, 400]⟩
abbrev S_ : Shape := ⟨0, ![]⟩
abbrev S400x300 : Shape := ⟨2, ![400, 300]⟩
abbrev S131072x300 : Shape := ⟨2, ![131072, 300]⟩
abbrev S1x300 : Shape := ⟨2, ![1, 300]⟩
abbrev S131072x1 : Shape := ⟨2, ![131072, 1]⟩
abbrev S131072x302 : Shape := ⟨2, ![131072, 302]⟩
abbrev S302x2 : Shape := ⟨2, ![302, 2]⟩
abbrev S131072x2 : Shape := ⟨2, ![131072, 2]⟩
abbrev S1x2 : Shape := ⟨2, ![1, 2]⟩
abbrev S302x1 : Shape := ⟨2, ![302, 1]⟩
abbrev S1x1 : Shape := ⟨2, ![1, 1]⟩
abbrev S64x2048x2 : Shape := ⟨3, ![64, 2048, 2]⟩
abbrev S64x2048x1 : Shape := ⟨3, ![64, 2048, 1]⟩
abbrev S64x2048x4 : Shape := ⟨3, ![64, 2048, 4]⟩

abbrev nBuf : Space → Nat
  | .hbm => 69
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x2048, .f32⟩
  | .hbm, ⟨2, _⟩ => ⟨S64x2048, .i32⟩
  | .hbm, ⟨3, _⟩ => ⟨S131072, .f32⟩
  | .hbm, ⟨4, _⟩ => ⟨S400x512, .f32⟩
  | .hbm, ⟨5, _⟩ => ⟨S400, .f32⟩
  | .hbm, ⟨6, _⟩ => ⟨S300x400, .f32⟩
  | .hbm, ⟨7, _⟩ => ⟨S300, .f32⟩
  | .hbm, ⟨8, _⟩ => ⟨S2x302, .f32⟩
  | .hbm, ⟨9, _⟩ => ⟨S2, .f32⟩
  | .hbm, ⟨10, _⟩ => ⟨S1x302, .f32⟩
  | .hbm, ⟨11, _⟩ => ⟨S1, .f32⟩
  | .hbm, ⟨12, _⟩ => ⟨S131072x512, .f32⟩
  | .hbm, ⟨13, _⟩ => ⟨S512x400, .f32⟩
  | .hbm, ⟨14, _⟩ => ⟨S131072x400, .f32⟩
  | .hbm, ⟨15, _⟩ => ⟨S1x400, .f32⟩
  | .hbm, ⟨16, _⟩ => ⟨S131072x400, .f32⟩
  | .hbm, ⟨17, _⟩ => ⟨S131072x400, .f32⟩
  | .hbm, ⟨18, _⟩ => ⟨S_, .f32⟩
  | .hbm, ⟨19, _⟩ => ⟨S131072x400, .f32⟩
  | .hbm, ⟨20, _⟩ => ⟨S131072x400, .f32⟩
  | .hbm, ⟨21, _⟩ => ⟨S400x300, .f32⟩
  | .hbm, ⟨22, _⟩ => ⟨S131072x300, .f32⟩
  | .hbm, ⟨23, _⟩ => ⟨S1x300, .f32⟩
  | .hbm, ⟨24, _⟩ => ⟨S131072x300, .f32⟩
  | .hbm, ⟨25, _⟩ => ⟨S131072x300, .f32⟩
  | .hbm, ⟨26, _⟩ => ⟨S_, .f32⟩
  | .hbm, ⟨27, _⟩ => ⟨S131072x300, .f32⟩
  | .hbm, ⟨28, _⟩ => ⟨S131072x300, .f32⟩
  | .hbm, ⟨29, _⟩ => ⟨S131072x1, .i32⟩
  | .hbm, ⟨30, _⟩ => ⟨S131072x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S64x2048, .f32⟩
  | .hbm, ⟨35, _⟩ => ⟨S64x2048, .f32⟩
  | .hbm, ⟨36, _⟩ => ⟨S_, .f32⟩
  | .hbm, ⟨37, _⟩ => ⟨S64x2048, .f32⟩
  | .hbm, ⟨38, _⟩ => ⟨S64x2048, .f32⟩
  | .hbm, ⟨39, _⟩ => ⟨S131072x1, .f32⟩
  | .hbm, ⟨40, _⟩ => ⟨S131072x302, .f32⟩
  | .hbm, ⟨41, _⟩ => ⟨S302x2, .f32⟩
  | .hbm, ⟨42, _⟩ => ⟨S131072x2, .f32⟩
  | .hbm, ⟨43, _⟩ => ⟨S1x2, .f32⟩
  | .hbm, ⟨44, _⟩ => ⟨S131072x2, .f32⟩
  | .hbm, ⟨45, _⟩ => ⟨S131072x2, .f32⟩
  | .hbm, ⟨46, _⟩ => ⟨S131072x2, .f32⟩
  | .hbm, ⟨47, _⟩ => ⟨S131072x2, .f32⟩
  | .hbm, ⟨48, _⟩ => ⟨S_, .f32⟩
  | .hbm, ⟨49, _⟩ => ⟨S131072x2, .f32⟩
  | .hbm, ⟨50, _⟩ => ⟨S131072x2, .f32⟩
  | .hbm, ⟨51, _⟩ => ⟨S_, .f32⟩
  | .hbm, ⟨52, _⟩ => ⟨S131072x2, .f32⟩
  | .hbm, ⟨53, _⟩ => ⟨S131072x2, .f32⟩
  | .hbm, ⟨54, _⟩ => ⟨S302x1, .f32⟩
  | .hbm, ⟨55, _⟩ => ⟨S131072x1, .f32⟩
  | .hbm, ⟨56, _⟩ => ⟨S1x1, .f32⟩
  | .hbm, ⟨57, _⟩ => ⟨S131072x1, .f32⟩
  | .hbm, ⟨58, _⟩ => ⟨S131072x1, .f32⟩
  | .hbm, ⟨59, _⟩ => ⟨S131072x1, .f32⟩
  | .hbm, ⟨60, _⟩ => ⟨S131072, .f32⟩
  | .hbm, ⟨61, _⟩ => ⟨S131072x1, .f32⟩
  | .hbm, ⟨62, _⟩ => ⟨S131072, .f32⟩
  | .hbm, ⟨63, _⟩ => ⟨S131072, .f32⟩
  | .hbm, ⟨64, _⟩ => ⟨S131072, .f32⟩
  | .hbm, ⟨65, _⟩ => ⟨S64x2048x2, .f32⟩
  | .hbm, ⟨66, _⟩ => ⟨S64x2048x1, .f32⟩
  | .hbm, ⟨67, _⟩ => ⟨S64x2048x1, .f32⟩
  | .hbm, ⟨68, _⟩ => ⟨S64x2048x4, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_cst : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call1_cst : Ref sig .tc := ⟨.hbm, 26, rfl⟩
abbrev main_call1_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_cst_0 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_1 : Ref sig .tc := ⟨.hbm, 48, rfl⟩
abbrev main_v25 : Ref sig .tc := ⟨.hbm, 49, rfl⟩
abbrev main_v26 : Ref sig .tc := ⟨.hbm, 50, rfl⟩
abbrev main_cst_2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]

class Facts₀ : Prop where
  shapeCasts_S64x2048x512_S131072x512 : S64x2048x512.ShapeCasts S131072x512
  transposes_S400x512_S512x400_1_0 : S400x512.Transposes [1, 0] S512x400
  bcast_S400_S1x400_1 : S400.BroadcastsInDim S1x400 (![1] : Fin 1 → Fin S1x400.rank)
  bcast_S1x400_S131072x400_0_1 : S1x400.BroadcastsInDim S131072x400 (![0, 1] : Fin 2 → Fin S131072x400.rank)
  bcast_S_S131072x400 : S_.BroadcastsInDim S131072x400 (![] : Fin 0 → Fin S131072x400.rank)
  transposes_S300x400_S400x300_1_0 : S300x400.Transposes [1, 0] S400x300
  bcast_S300_S1x300_1 : S300.BroadcastsInDim S1x300 (![1] : Fin 1 → Fin S1x300.rank)
  bcast_S1x300_S131072x300_0_1 : S1x300.BroadcastsInDim S131072x300 (![0, 1] : Fin 2 → Fin S131072x300.rank)
  bcast_S_S131072x300 : S_.BroadcastsInDim S131072x300 (![] : Fin 0 → Fin S131072x300.rank)
  shapeCasts_S64x2048_S131072x1 : S64x2048.ShapeCasts S131072x1
  bcast_S_S64x2048 : S_.BroadcastsInDim S64x2048 (![] : Fin 0 → Fin S64x2048.rank)
  concatenates_S131072x300_S131072x1_S131072x1_S131072x302_d1 : Shape.Concatenates [S131072x300, S131072x1, S131072x1] S131072x302 1
  transposes_S2x302_S302x2_1_0 : S2x302.Transposes [1, 0] S302x2
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  bcast_S_S131072x2 : S_.BroadcastsInDim S131072x2 (![] : Fin 0 → Fin S131072x2.rank)
  transposes_S1x302_S302x1_1_0 : S1x302.Transposes [1, 0] S302x1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  slices_S131072x2_S131072x1_0_0 : S131072x2.Slices ![0, 0] S131072x1
  shapeCasts_S131072x1_S131072 : S131072x1.ShapeCasts S131072
  slices_S131072x2_S131072x1_0_1 : S131072x2.Slices ![0, 1] S131072x1
  shapeCasts_S131072x2_S64x2048x2 : S131072x2.ShapeCasts S64x2048x2
  shapeCasts_S131072x1_S64x2048x1 : S131072x1.ShapeCasts S64x2048x1
  shapeCasts_S131072_S64x2048x1 : S131072.ShapeCasts S64x2048x1
  concatenates_S64x2048x2_S64x2048x1_S64x2048x1_S64x2048x4_d2 : Shape.Concatenates [S64x2048x2, S64x2048x1, S64x2048x1] S64x2048x4 2
  dot_S131072x512_S512x400_S131072x400_1_0_0_1_n_n_wf : DotDims.WF S131072x512 S512x400 S131072x400 [1] [0] [0] [1] [] []
  dot_S131072x400_S400x300_S131072x300_1_0_0_1_n_n_wf : DotDims.WF S131072x400 S400x300 S131072x300 [1] [0] [0] [1] [] []
  dot_S131072x302_S302x2_S131072x2_1_0_0_1_n_n_wf : DotDims.WF S131072x302 S302x2 S131072x2 [1] [0] [0] [1] [] []
  dot_S131072x302_S302x1_S131072x1_1_0_0_1_n_n_wf : DotDims.WF S131072x302 S302x1 S131072x1 [1] [0] [0] [1] [] []

variable [Facts₀]

def dot_S131072x512_S512x400_S131072x400_1_0_0_1_n_n : DotDims S131072x512 S512x400 S131072x400 where
  lhsContracting := [1]
  rhsContracting := [0]
  lhsNonContracting := [0]
  rhsNonContracting := [1]
  lhsBatch := []
  rhsBatch := []
  wf := dot_S131072x512_S512x400_S131072x400_1_0_0_1_n_n_wf
def dot_S131072x400_S400x300_S131072x300_1_0_0_1_n_n : DotDims S131072x400 S400x300 S131072x300 where
  lhsContracting := [1]
  rhsContracting := [0]
  lhsNonContracting := [0]
  rhsNonContracting := [1]
  lhsBatch := []
  rhsBatch := []
  wf := dot_S131072x400_S400x300_S131072x300_1_0_0_1_n_n_wf
def dot_S131072x302_S302x2_S131072x2_1_0_0_1_n_n : DotDims S131072x302 S302x2 S131072x2 where
  lhsContracting := [1]
  rhsContracting := [0]
  lhsNonContracting := [0]
  rhsNonContracting := [1]
  lhsBatch := []
  rhsBatch := []
  wf := dot_S131072x302_S302x2_S131072x2_1_0_0_1_n_n_wf
def dot_S131072x302_S302x1_S131072x1_1_0_0_1_n_n : DotDims S131072x302 S302x1 S131072x1 where
  lhsContracting := [1]
  rhsContracting := [0]
  lhsNonContracting := [0]
  rhsNonContracting := [1]
  lhsBatch := []
  rhsBatch := []
  wf := dot_S131072x302_S302x1_S131072x1_1_0_0_1_n_n_wf

class Facts : Prop extends Facts₀ where

variable [Facts]
-- ==== Proof.BitsAround.lean ====
/-
  @main around its one region.  Sixteen host lines prepare the kernel's operands: the frames
  flattened to 131072 rows, the three per-row scalars (reward, last action as a float, noise)
  laid side by side as one [131072,3] array, the two layer matrices transposed, the policy and
  baseline heads stacked into one [3,302] matrix and transposed, the biases as rows.  The region
  runs the kernel over 32 blocks of 4096 rows; one host line reshapes the [131072,4] result.
  Here: what every buffer holds when the region is entered, that no host line writes an
  argument, each window's block at a grid point and that an input window's buffer holds that
  block whenever the body is called, and the frame statement read off a run that names every
  buffer after the last line.
-/
import proofs.«169553_j53635551592612_2_alg».proof.Proof.Gen.Kernel.Launch
import proofs.«169553_j53635551592612_2_alg».proof.Proof.Gen.Kernel.Skeleton
import proofs.«169553_j53635551592612_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the region finds -/

/-- Core `c`'s buffer contents when the region is entered: the launch contents after the sixteen host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the region, the last host line: it reduces to the region continued by that line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The last line touches only the pipeline's arrays and buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes only the reshaped result, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments are never written -/

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c

/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 10 ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg10 (by exact (by decide : ∀ w, Pipeline.arrRef spec0 w ≠ main_arg10))]
  exact V_main_arg10 m c

/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 11 ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg11 (by exact (by decide : ∀ w, Pipeline.arrRef spec0 w ≠ main_arg11))]
  exact V_main_arg11 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block whenever the body is called, fetched at that
    point or not (an unfetched window's block index has not moved), for any proof data over the
    region-entry arrays whose body leaves input blocks in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run that names every buffer -/

/-- No window stages an argument (each window's array is a host line's result), so every argument
    is a buffer the region bypasses, held at what the last line leaves: the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
      ((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c)⟩) h

end Cert.Kernel.Hand

end
-- ==== Proof.BitsBody.lean ====
/-
  One call of the kernel body.  It reads its frame block [4096,512], the three columns of its
  block of per-row scalars [4096,3], both layer matrices and bias rows, the stacked head matrix
  [302,3] and its bias row, and stores one [4096,4] block: per row the two sigmoids of the policy
  head, the baseline head, and the sample (first sigmoid plus second sigmoid times the noise).
  Here: the rectangles it reads and writes, what its single whole-block store leaves in the
  output buffer as a function of the input buffers' contents, and the body's triple.
-/
import proofs.«169553_j53635551592612_2_alg».proof.Proof.BitsAround

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: every buffer whole, the scalars' one column at a time -/

abbrev rFrame : Rect S4096x512 := Rect.unit (s := S4096x512) ![0, 0] S4096x512.size inb_S4096x512_S4096x512_0_0
abbrev rW1 : Rect S512x400 := Rect.unit (s := S512x400) ![0, 0] S512x400.size inb_S512x400_S512x400_0_0
abbrev rB1 : Rect S1x400 := Rect.unit (s := S1x400) ![0, 0] S1x400.size inb_S1x400_S1x400_0_0
abbrev rW2 : Rect S400x300 := Rect.unit (s := S400x300) ![0, 0] S400x300.size inb_S400x300_S400x300_0_0
abbrev rB2 : Rect S1x300 := Rect.unit (s := S1x300) ![0, 0] S1x300.size inb_S1x300_S1x300_0_0
abbrev rReward : Rect S4096x3 := Rect.unit (s := S4096x3) ![0, 0] S4096x1.size inb_S4096x3_S4096x1_0_0
abbrev rAction : Rect S4096x3 := Rect.unit (s := S4096x3) ![0, 1] S4096x1.size inb_S4096x3_S4096x1_0_1
abbrev rNoise : Rect S4096x3 := Rect.unit (s := S4096x3) ![0, 2] S4096x1.size inb_S4096x3_S4096x1_0_2
abbrev rHead : Rect S302x3 := Rect.unit (s := S302x3) ![0, 0] S302x3.size inb_S302x3_S302x3_0_0
abbrev rHeadBias : Rect S1x3 := Rect.unit (s := S1x3) ![0, 0] S1x3.size inb_S1x3_S1x3_0_0
abbrev rOut : Rect S4096x4 := Rect.unit (s := S4096x4) ![0, 0] S4096x4.size inb_S4096x4_S4096x4_0_0

/-! ## What the body leaves in the output buffer -/

/-- The output buffer after the body: its one store, of the whole block, of the body's arithmetic
    on what it loaded from the eight input buffers. -/
def outBlock (x0 : Vec F S4096x512 .f32) (x1 : Vec F S4096x3 .f32) (x2 : Vec F S512x400 .f32) (x3 : Vec F S1x400 .f32) (x4 : Vec F S400x300 .f32) (x5 : Vec F S1x300 .f32) (x6 : Vec F S302x3 .f32) (x7 : Vec F S1x3 .f32) : Vec F S4096x4 .f32 :=
  View.canon [⟨rOut, k0_pay1 (k0_pay2 (View.ld x1 rNoise))
    (k0_pay3 (View.ld x0 rFrame) (View.ld x2 rW1) (View.ld x3 rB1) (View.ld x4 rW2) (View.ld x5 rB2) (View.ld x1 rReward) (View.ld x1 rAction))
    (View.ld x6 rHead) (View.ld x7 rHeadBias)⟩]

/-- The one store covers the buffer. -/
theorem cover_out (p0 : Vec F S4096x4 .f32) (y : S4096x4.Idx) :
    ∃ pc ∈ ([⟨rOut, p0⟩] : List (View.Piece (Elt F) S4096x4 .f32)), y ∈ pc.1.set :=
  View.cover_of_tiled [⟨rOut, p0⟩] S4096x4.size (by rfl) y

/-! ## The body's triple -/

set_option maxHeartbeats 1000000 in
/-- On whole staging buffers, the inputs' at contents `x0 … x7` and the output's at anything, the
    body runs to a state holding the inputs' as they were and the output's at `outBlock` of them. -/
theorem sound_kernel (c : Dev nD) (E : Set ℕ) (i : grid0.Coords) (arg1 : Memref sig .tc .vmem S4096x512 .f32) (harg1 : arg1.IsWhole) (arg2 : Memref sig .tc .vmem S4096x3 .f32) (harg2 : arg2.IsWhole) (arg3 : Memref sig .tc .vmem S512x400 .f32) (harg3 : arg3.IsWhole) (arg4 : Memref sig .tc .vmem S1x400 .f32) (harg4 : arg4.IsWhole) (arg5 : Memref sig .tc .vmem S400x300 .f32) (harg5 : arg5.IsWhole) (arg6 : Memref sig .tc .vmem S1x300 .f32) (harg6 : arg6.IsWhole) (arg7 : Memref sig .tc .vmem S302x3 .f32) (harg7 : arg7.IsWhole) (arg8 : Memref sig .tc .vmem S1x3 .f32) (harg8 : arg8.IsWhole) (arg9 : Memref sig .tc .vmem S4096x4 .f32) (harg9 : arg9.IsWhole)
    (x0 : Vec F S4096x512 .f32) (x1 : Vec F S4096x3 .f32) (x2 : Vec F S512x400 .f32) (x3 : Vec F S1x400 .f32) (x4 : Vec F S400x300 .f32) (x5 : Vec F S1x300 .f32) (x6 : Vec F S302x3 .f32) (x7 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock x0 x1 x2 x3 x4 x5 x6 x7)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover_out _)

end Cert.Kernel.Hand

end
-- ==== Proof.BitsRun.lean ====
/-
  The run of @main.  The proof data of the one pipeline: every array as the region finds it; after
  the body at a grid point each input buffer still at its block, the output buffer at the body's
  arithmetic on the eight input blocks; nothing else owned or owed.  The body meets its obligation
  at every point, so every weakly fair execution of @main ends, faults nowhere, leaves each of the
  pipeline's arrays at what the write-backs assemble and every other buffer at what the last host
  line leaves.  The arguments are among the latter, unchanged: the frame.
-/
import proofs.«169553_j53635551592612_2_alg».proof.Proof.BitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, each array of the pipeline ends at
    what the write-backs assemble from the proof data, every other unscoped buffer at what the last
    host line leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame, at any reading of the floats: @main runs and its twelve arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.Kernel.Hand

end
-- ==== Proof.IdealAround.lean ====
/-
  @main around its one region.  Sixteen host lines prepare the kernel's operands: the frames
  flattened to 131072 rows, the three per-row scalars (reward, last action as a float, noise)
  laid side by side as one [131072,3] array, the two layer matrices transposed, the policy and
  baseline heads stacked into one [3,302] matrix and transposed, the biases as rows.  The region
  runs the kernel over 32 blocks of 4096 rows; one host line reshapes the [131072,4] result.
  Here: what every buffer holds when the region is entered, that no host line writes an
  argument, each window's block at a grid point and that an input window's buffer holds that
  block whenever the body is called, and the frame statement read off a run that names every
  buffer after the last line.
-/
import proofs.«169553_j53635551592612_2_alg».proof.Proof.Gen.KernelIdeal.Launch
import proofs.«169553_j53635551592612_2_alg».proof.Proof.Gen.KernelIdeal.Skeleton
import proofs.«169553_j53635551592612_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the region finds -/

/-- Core `c`'s buffer contents when the region is entered: the launch contents after the sixteen host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the region, the last host line: it reduces to the region continued by that line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The last line touches only the pipeline's arrays and buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes only the reshaped result, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments are never written -/

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c

/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 10 ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg10 (by exact (by decide : ∀ w, Pipeline.arrRef spec0 w ≠ main_arg10))]
  exact V_main_arg10 m c

/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and the region stages none of the arguments: argument 11 ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg11 (by exact (by decide : ∀ w, Pipeline.arrRef spec0 w ≠ main_arg11))]
  exact V_main_arg11 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block whenever the body is called, fetched at that
    point or not (an unfetched window's block index has not moved), for any proof data over the
    region-entry arrays whose body leaves input blocks in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run that names every buffer -/

/-- No window stages an argument (each window's array is a host line's result), so every argument
    is a buffer the region bypasses, held at what the last line leaves: the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
      ((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c)⟩) h

end Cert.KernelIdeal.Hand

end
-- ==== Proof.IdealBody.lean ====
/-
  One call of the kernel body.  It reads its frame block [4096,512], the three columns of its
  block of per-row scalars [4096,3], both layer matrices and bias rows, the stacked head matrix
  [302,3] and its bias row, and stores one [4096,4] block: per row the two sigmoids of the policy
  head, the baseline head, and the sample (first sigmoid plus second sigmoid times the noise).
  Here: the rectangles it reads and writes, what its single whole-block store leaves in the
  output buffer as a function of the input buffers' contents, and the body's triple.
-/
import proofs.«169553_j53635551592612_2_alg».proof.Proof.IdealAround

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: every buffer whole, the scalars' one column at a time -/

abbrev rFrame : Rect S4096x512 := Rect.unit (s := S4096x512) ![0, 0] S4096x512.size inb_S4096x512_S4096x512_0_0
abbrev rW1 : Rect S512x400 := Rect.unit (s := S512x400) ![0, 0] S512x400.size inb_S512x400_S512x400_0_0
abbrev rB1 : Rect S1x400 := Rect.unit (s := S1x400) ![0, 0] S1x400.size inb_S1x400_S1x400_0_0
abbrev rW2 : Rect S400x300 := Rect.unit (s := S400x300) ![0, 0] S400x300.size inb_S400x300_S400x300_0_0
abbrev rB2 : Rect S1x300 := Rect.unit (s := S1x300) ![0, 0] S1x300.size inb_S1x300_S1x300_0_0
abbrev rReward : Rect S4096x3 := Rect.unit (s := S4096x3) ![0, 0] S4096x1.size inb_S4096x3_S4096x1_0_0
abbrev rAction : Rect S4096x3 := Rect.unit (s := S4096x3) ![0, 1] S4096x1.size inb_S4096x3_S4096x1_0_1
abbrev rNoise : Rect S4096x3 := Rect.unit (s := S4096x3) ![0, 2] S4096x1.size inb_S4096x3_S4096x1_0_2
abbrev rHead : Rect S302x3 := Rect.unit (s := S302x3) ![0, 0] S302x3.size inb_S302x3_S302x3_0_0
abbrev rHeadBias : Rect S1x3 := Rect.unit (s := S1x3) ![0, 0] S1x3.size inb_S1x3_S1x3_0_0
abbrev rOut : Rect S4096x4 := Rect.unit (s := S4096x4) ![0, 0] S4096x4.size inb_S4096x4_S4096x4_0_0

/-! ## What the body leaves in the output buffer -/

/-- The output buffer after the body: its one store, of the whole block, of the body's arithmetic
    on what it loaded from the eight input buffers. -/
def outBlock (x0 : Vec F S4096x512 .f32) (x1 : Vec F S4096x3 .f32) (x2 : Vec F S512x400 .f32) (x3 : Vec F S1x400 .f32) (x4 : Vec F S400x300 .f32) (x5 : Vec F S1x300 .f32) (x6 : Vec F S302x3 .f32) (x7 : Vec F S1x3 .f32) : Vec F S4096x4 .f32 :=
  View.canon [⟨rOut, k0_pay1 (k0_pay2 (View.ld x1 rNoise))
    (k0_pay3 (View.ld x0 rFrame) (View.ld x2 rW1) (View.ld x3 rB1) (View.ld x4 rW2) (View.ld x5 rB2) (View.ld x1 rReward) (View.ld x1 rAction))
    (View.ld x6 rHead) (View.ld x7 rHeadBias)⟩]

/-- The one store covers the buffer. -/
theorem cover_out (p0 : Vec F S4096x4 .f32) (y : S4096x4.Idx) :
    ∃ pc ∈ ([⟨rOut, p0⟩] : List (View.Piece (Elt F) S4096x4 .f32)), y ∈ pc.1.set :=
  View.cover_of_tiled [⟨rOut, p0⟩] S4096x4.size (by rfl) y

/-! ## The body's triple -/

set_option maxHeartbeats 1000000 in
/-- On whole staging buffers, the inputs' at contents `x0 … x7` and the output's at anything, the
    body runs to a state holding the inputs' as they were and the output's at `outBlock` of them. -/
theorem sound_kernel (c : Dev nD) (E : Set ℕ) (i : grid0.Coords) (arg1 : Memref sig .tc .vmem S4096x512 .f32) (harg1 : arg1.IsWhole) (arg2 : Memref sig .tc .vmem S4096x3 .f32) (harg2 : arg2.IsWhole) (arg3 : Memref sig .tc .vmem S512x400 .f32) (harg3 : arg3.IsWhole) (arg4 : Memref sig .tc .vmem S1x400 .f32) (harg4 : arg4.IsWhole) (arg5 : Memref sig .tc .vmem S400x300 .f32) (harg5 : arg5.IsWhole) (arg6 : Memref sig .tc .vmem S1x300 .f32) (harg6 : arg6.IsWhole) (arg7 : Memref sig .tc .vmem S302x3 .f32) (harg7 : arg7.IsWhole) (arg8 : Memref sig .tc .vmem S1x3 .f32) (harg8 : arg8.IsWhole) (arg9 : Memref sig .tc .vmem S4096x4 .f32) (harg9 : arg9.IsWhole)
    (x0 : Vec F S4096x512 .f32) (x1 : Vec F S4096x3 .f32) (x2 : Vec F S512x400 .f32) (x3 : Vec F S1x400 .f32) (x4 : Vec F S400x300 .f32) (x5 : Vec F S1x300 .f32) (x6 : Vec F S302x3 .f32) (x7 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock x0 x1 x2 x3 x4 x5 x6 x7)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover_out _)

end Cert.KernelIdeal.Hand

end
-- ==== Proof.IdealRun.lean ====
/-
  The run of @main.  The proof data of the one pipeline: every array as the region finds it; after
  the body at a grid point each input buffer still at its block, the output buffer at the body's
  arithmetic on the eight input blocks; nothing else owned or owed.  The body meets its obligation
  at every point, so every weakly fair execution of @main ends, faults nowhere, leaves each of the
  pipeline's arrays at what the write-backs assemble and every other buffer at what the last host
  line leaves.  The arguments are among the latter, unchanged: the frame.
-/
import proofs.«169553_j53635551592612_2_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, each array of the pipeline ends at
    what the write-backs assemble from the proof data, every other unscoped buffer at what the last
    host line leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame, at any reading of the floats: @main runs and its twelve arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.KernelIdeal.Hand

end
-- ==== Proof.RefFrame.lean ====
/-
  The reference is a straight-line host program: it terminates, faults nowhere and leaves its
  arguments as they were.  Its run (every result at the composed term of the arguments, every
  argument kept) is the generated module's; the frame is that run with the result forgotten.
-/
import proofs.«169553_j53635551592612_2_alg».proof.Defs
import proofs.«169553_j53635551592612_2_alg».proof.Proof.Gen.ReferenceIdeal.Run
import proofs.«169553_j53635551592612_2_alg».proof.Proof.Gen.ReferenceIdeal.Read
import proofs.«169553_j53635551592612_2_alg».proof.Proof.Gen.Pre_finite_inputs

noncomputable section

namespace Cert.Proof.RefFrame

open Idealize.ShloMosaic Idealize.ShloMosaic.TcCoe Idealize.SL.Sem

/-- The reference's frame: its generated run, the result dropped. -/
theorem frame_ri : Cert.frame_ReferenceIdeal := fun m ρ _ =>
  (θ_run Cert.ReferenceIdeal.defs _ _).mono (fun _ h c => (h c).2)
    (Cert.ReferenceIdeal.Value.run (F := Ideal) m ρ)

end Cert.Proof.RefFrame

end
-- ==== Proof.RowSpec.lean ====
/-
  What one row of the result is, as a function of that row's data alone, on the extended reals.

  A row carries 512 frame entries `x`, a reward, the last action as a number, and a noise sample.
  Two dense layers with a rectifier:  h1 a = max (Σ_k x k · W1 a k + b1 a) 0  (400 units),
  h2 j = max (Σ_a h1 a · W2 j a + b2 j) 0  (300 units).  The core vector (302 entries) is h2,
  then the reward clipped to [-1, 1], then the action.  Three heads over the core, each
  Σ_k core k · Wh j k + bh j: heads 0 and 1 are the policy's (mean and spread), head 2 the
  baseline's.  The row of the result: σ(head 0), σ(head 1), head 2, and the sample
  σ(head 0) + σ(head 1) · noise, where σ x = 1 / (1 + e^(-x)).
  The float words of 0, -1 and 1 are kept as words (both programs print the same ones).
-/
import Idealize.ShloMosaic.PureOps.Ideal
import Idealize.ShloMosaic.Lib.ValueIdx

noncomputable section

namespace Cert.RowSpec

open Idealize.ShloMosaic

/-- The float words both programs print, read on the extended reals. -/
abbrev wZero : EReal := Ideal.ofBits .f32 0x00000000#32
abbrev wNegOne : EReal := Ideal.ofBits .f32 0xBF800000#32
abbrev wOne : EReal := Ideal.ofBits .f32 0x3F800000#32

/-- First layer, unit `a`: the rectified affine form of the row. -/
def hidden1 (x : Fin 512 → EReal) (w1 : Fin 400 → Fin 512 → EReal) (b1 : Fin 400 → EReal) (a : Fin 400) : EReal :=
  max (∑ k : Fin 512, x k * w1 a k + b1 a) wZero

/-- Second layer, unit `j`, over the first layer's units. -/
def hidden2 (h1 : Fin 400 → EReal) (w2 : Fin 300 → Fin 400 → EReal) (b2 : Fin 300 → EReal) (j : Fin 300) : EReal :=
  max (∑ a : Fin 400, h1 a * w2 j a + b2 j) wZero

/-- The reward clipped to [-1, 1]. -/
def clipped (rew : EReal) : EReal := min wOne (max wNegOne rew)

/-- The core vector: the second layer's 300 units, the clipped reward, the action. -/
def core (h2 : Fin 300 → EReal) (rew act : EReal) (k : Fin 302) : EReal :=
  if h : k.val < 300 then h2 ⟨k.val, h⟩ else if k.val = 300 then clipped rew else act

/-- Head `j` over the core vector. -/
def head (cr : Fin 302 → EReal) (wh : Fin 3 → Fin 302 → EReal) (bh : Fin 3 → EReal) (j : Fin 3) : EReal :=
  ∑ k : Fin 302, cr k * wh j k + bh j

/-- The four entries of the row from the three heads and the noise. -/
def outOfHeads (hd : Fin 3 → EReal) (noise : EReal) (j : Fin 4) : EReal :=
  if j.val = 0 then Ideal.logistic (hd 0)
  else if j.val = 1 then Ideal.logistic (hd 1)
  else if j.val = 2 then hd 2
  else Ideal.logistic (hd 0) + Ideal.logistic (hd 1) * noise

/-- One row of the result from that row's data and the weights. -/
def rowOut (x : Fin 512 → EReal) (rew act noise : EReal)
    (w1 : Fin 400 → Fin 512 → EReal) (b1 : Fin 400 → EReal)
    (w2 : Fin 300 → Fin 400 → EReal) (b2 : Fin 300 → EReal)
    (wh : Fin 3 → Fin 302 → EReal) (bh : Fin 3 → EReal) (j : Fin 4) : EReal :=
  outOfHeads (head (core (hidden2 (hidden1 x w1 b1) w2 b2) rew act) wh bh) noise j

/-- The stacked head matrix: the policy's two rows, then the baseline's one. -/
def stackW (wp : Fin 2 → Fin 302 → EReal) (wb : Fin 302 → EReal) (j : Fin 3) (k : Fin 302) : EReal :=
  if h : j.val < 2 then wp ⟨j.val, h⟩ k else wb k

/-- The stacked head bias. -/
def stackB (bp : Fin 2 → EReal) (bb : EReal) (j : Fin 3) : EReal :=
  if h : j.val < 2 then bp ⟨j.val, h⟩ else bb

/-! ## The whole result from the twelve arguments -/

open ValueIdx

/-- Row `a · 2048 + b` of the 131072 flattened rows. -/
def flatRow (a : Fin 64) (b : Fin 2048) : Fin 131072 := ⟨a.val * 2048 + b.val, by omega⟩

/-- Entry (a, b, j) of the [64, 2048, 4] result: `rowOut` of row (a, b)'s data — its 512 frame entries, its
    reward, its action converted to a float, its noise sample (the noise is stored flat, at a·2048 + b) — and
    the weights, the policy's and the baseline's heads stacked. -/
def resultOf
    (frame : (⟨⟨3, ![64, 2048, 512]⟩, .f32⟩ : BufTy).Contents (Elt Ideal))
    (reward : (⟨⟨2, ![64, 2048]⟩, .f32⟩ : BufTy).Contents (Elt Ideal))
    (action : (⟨⟨2, ![64, 2048]⟩, .i32⟩ : BufTy).Contents (Elt Ideal))
    (noise : (⟨⟨1, ![131072]⟩, .f32⟩ : BufTy).Contents (Elt Ideal))
    (w1 : (⟨⟨2, ![400, 512]⟩, .f32⟩ : BufTy).Contents (Elt Ideal))
    (b1 : (⟨⟨1, ![400]⟩, .f32⟩ : BufTy).Contents (Elt Ideal))
    (w2 : (⟨⟨2, ![300, 400]⟩, .f32⟩ : BufTy).Contents (Elt Ideal))
    (b2 : (⟨⟨1, ![300]⟩, .f32⟩ : BufTy).Contents (Elt Ideal))
    (wp : (⟨⟨2, ![2, 302]⟩, .f32⟩ : BufTy).Contents (Elt Ideal))
    (bp : (⟨⟨1, ![2]⟩, .f32⟩ : BufTy).Contents (Elt Ideal))
    (wb : (⟨⟨2, ![1, 302]⟩, .f32⟩ : BufTy).Contents (Elt Ideal))
    (bb : (⟨⟨1, ![1]⟩, .f32⟩ : BufTy).Contents (Elt Ideal))
    (i : (⟨3, ![64, 2048, 4]⟩ : Shape).Idx) : EReal :=
  rowOut (fun k => frame (ix3 (i 0) (i 1) k)) (reward (ix2 (i 0) (i 1)))
    (FloatOps.sitofp (F := Ideal) .f32 (action (ix2 (i 0) (i 1)))) (noise (ix1 (flatRow (i 0) (i 1))))
    (fun a k => w1 (ix2 a k)) (fun a => b1 (ix1 a)) (fun j a => w2 (ix2 j a)) (fun j => b2 (ix1 j))
    (stackW (fun j k => wp (ix2 j k)) (fun k => wb (ix2 0 k))) (stackB (fun j => bp (ix1 j)) (bb (ix1 0))) (i 2)

end Cert.RowSpec

end
-- ==== Proof.LibDenseRows.lean ====
import Idealize.ShloMosaic.PureOps.Ideal
import Idealize.ShloMosaic.PureOps.Ideal.Laws
import Idealize.ShloMosaic.Lib.ValueIdx
import Idealize.ShloMosaic.Lib.Pipeline.Value

/-!
# Rows of a dense layer, read entry by entry

General facts, at any extents, that a dense layer followed by a row-wise softmax meets:

* `col_cast_apply`: a length-`a` vector re-laid as a column `[a, 1]` has the vector's entry `r` at `(r, 0)`;
* `col_bcast_apply`: a column `[a, 1]` repeated along `b` columns has the column's entry `(r, 0)` at every `(r, c)`;
* `matmul_rows_apply`: the product of an `[a, k]` matrix and a `[k, b]` matrix accumulated into zero is, at `(r, c)`,
  the sum over `u < k` of `L (r, u) · R (u, c)` on the extended reals — for ANY dimension-numbers record whose operand
  indices have those coordinates (for a literal record each of the four facts is `fun _ _ => rfl`);
* `row_max_apply`, `row_sum_apply`: a maximum (from its starting value) and a sum along the columns of an `[a, b]`
  array, at row `r`, as a fold and a sum over the column index.
-/

noncomputable section

open scoped BigOperators

namespace Cert.DenseRows

open Idealize.ShloMosaic Idealize.ShloMosaic.ValueIdx

variable {α : Type}

/-- A vector re-laid as a column: entry `(r, 0)` of the column is entry `r` of the vector. -/
theorem col_cast_apply {a : ℕ} (v : (⟨1, ![a]⟩ : Shape).Idx → α) (h : (⟨1, ![a]⟩ : Shape).ShapeCasts ⟨2, ![a, 1]⟩)
    (r : Fin a) : shapeCast ⟨2, ![a, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column repeated along the columns: entry `(r, c)` is the column's entry `(r, 0)`. -/
theorem col_bcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A matrix product accumulated into zero, at `(r, c)`: the sum over the shared extent of the products of row `r` of the
    left factor and column `c` of the right one. -/
theorem matmul_rows_apply {a k b : ℕ} {φ₁ φ₂ : FTy}
    (D : DotDims ⟨2, ![a, k]⟩ ⟨2, ![k, b]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (L : FVec Ideal ⟨2, ![a, k]⟩ φ₁) (R : FVec Ideal ⟨2, ![k, b]⟩ φ₂) (r : Fin a) (c : Fin b) :
    FloatOps.matmul D prec L R (constant ⟨2, ![a, b]⟩ .f32 0x00000000#32) (ix2 r c)
      = ∑ u : Fin k, L (ix2 r u) * R (ix2 u c) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 u c := by
    funext ax
    match ax with
    | ⟨0, _⟩ => exact Fin.ext ((hr0 _ _).trans (contrEquiv1_symm_val D k hr hs u))
    | ⟨1, _⟩ => exact Fin.ext (hr1 _ _)
  rw [hL, hR]

/-- The maximum along the columns of an `[a, b]` array at row `r`: the fold of `max` from the starting value over the
    column index. -/
theorem row_max_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (FloatOps.ofBits φ acc) (fun c => src (ix2 r c)) := by
  refine (Ideal.multiReduction_maximumf_single src acc h hφ hacc (ix1 r)).trans ?_
  refine congrArg (fun g => (Finset.univ : Finset (Fin b)).fold max (FloatOps.ofBits φ acc) g) (funext fun c => ?_)
  refine congrArg src (funext fun ax => ?_)
  match ax with
  | ⟨0, _⟩ => rfl
  | ⟨1, _⟩ => rfl

/-- The sum along the columns of an `[a, b]` array at row `r`: the sum over the column index. -/
theorem row_sum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => ?_)
  match ax with
  | ⟨0, _⟩ => rfl
  | ⟨1, _⟩ => rfl

end Cert.DenseRows

end
-- ==== Proof.IdealPayload.lean ====
/-
  The body's arithmetic read entry by entry, on the extended reals.

  Row p of the stored [4096,4] block depends on row p of the frame block and of the scalars' block
  only, and on the whole weight buffers: the two rectified dense layers are sums over the shared
  extent (a matrix product into the zero accumulator is that sum; narrowing a factor to half
  precision is the identity on the extended reals), the core row is the 300 second-layer units
  followed by the clipped reward and the action, the three heads are one product with the stacked
  [302,3] matrix, and the stored row is σ(head 0), σ(head 1), head 2, σ(head 0) + σ(head 1)·noise.
  That is `rowOut` of the row's data.
-/
import proofs.«169553_j53635551592612_2_alg».proof.Proof.IdealBody
import proofs.«169553_j53635551592612_2_alg».proof.Proof.RowSpec
import proofs.«169553_j53635551592612_2_alg».proof.Proof.LibDenseRows
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx Cert.RowSpec Cert.DenseRows

/-! ## Small reads -/

/-- A row [1,b] repeated along a rows: entry (r, c) is the row's entry (0, c). -/
theorem row_bcast_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-- Three arrays laid side by side along the columns, read at (p, c): the left one where c is below its width, -/
theorem concat3_left {α : Type} {a n0 n1 n2 n : ℕ} (A : (⟨2, ![a, n0]⟩ : Shape).Idx → α) (B : (⟨2, ![a, n1]⟩ : Shape).Idx → α)
    (C : (⟨2, ![a, n2]⟩ : Shape).Idx → α)
    (h : Shape.Concatenates [(⟨2, ![a, n0]⟩ : Shape), ⟨2, ![a, n1]⟩, ⟨2, ![a, n2]⟩] ⟨2, ![a, n]⟩ 1) (p : Fin a) (c : Fin n) (hc : c.val < n0) :
    concatenate ⟨2, ![a, n]⟩ 1 [⟨⟨2, ![a, n0]⟩, A⟩, ⟨⟨2, ![a, n1]⟩, B⟩, ⟨⟨2, ![a, n2]⟩, C⟩] h (ix2 p c) = A (ix2 p (⟨c.val, hc⟩ : Fin n0)) :=
  concatenate_apply_piece (t := ⟨2, ![a, n]⟩) (1 : Fin 2) [⟨⟨2, ![a, n0]⟩, A⟩, ⟨⟨2, ![a, n1]⟩, B⟩, ⟨⟨2, ![a, n2]⟩, C⟩] h (ix2 p c) 0 (by show (0 : ℕ) < 3; omega) _ A rfl rfl 0 rfl
    (ix2 p (⟨c.val, hc⟩ : Fin n0)) (fun b hb => by match b with | ⟨0, _⟩ => rfl | ⟨1, _⟩ => exact absurd rfl hb)
    (by show 0 + c.val = c.val; omega)

/-- the middle one where c runs over its columns, -/
theorem concat3_mid {α : Type} {a n0 n1 n2 n : ℕ} (A : (⟨2, ![a, n0]⟩ : Shape).Idx → α) (B : (⟨2, ![a, n1]⟩ : Shape).Idx → α)
    (C : (⟨2, ![a, n2]⟩ : Shape).Idx → α)
    (h : Shape.Concatenates [(⟨2, ![a, n0]⟩ : Shape), ⟨2, ![a, n1]⟩, ⟨2, ![a, n2]⟩] ⟨2, ![a, n]⟩ 1) (p : Fin a) (c : Fin n) (q : Fin n1)
    (hc : n0 + q.val = c.val) :
    concatenate ⟨2, ![a, n]⟩ 1 [⟨⟨2, ![a, n0]⟩, A⟩, ⟨⟨2, ![a, n1]⟩, B⟩, ⟨⟨2, ![a, n2]⟩, C⟩] h (ix2 p c) = B (ix2 p q) :=
  concatenate_apply_piece (t := ⟨2, ![a, n]⟩) (1 : Fin 2) [⟨⟨2, ![a, n0]⟩, A⟩, ⟨⟨2, ![a, n1]⟩, B⟩, ⟨⟨2, ![a, n2]⟩, C⟩] h (ix2 p c) 1 (by show (1 : ℕ) < 3; omega) _ B rfl rfl n0 rfl
    (ix2 p q) (fun b hb => by match b with | ⟨0, _⟩ => rfl | ⟨1, _⟩ => exact absurd rfl hb) hc

/-- the right one beyond both. -/
theorem concat3_right {α : Type} {a n0 n1 n2 n : ℕ} (A : (⟨2, ![a, n0]⟩ : Shape).Idx → α) (B : (⟨2, ![a, n1]⟩ : Shape).Idx → α)
    (C : (⟨2, ![a, n2]⟩ : Shape).Idx → α)
    (h : Shape.Concatenates [(⟨2, ![a, n0]⟩ : Shape), ⟨2, ![a, n1]⟩, ⟨2, ![a, n2]⟩] ⟨2, ![a, n]⟩ 1) (p : Fin a) (c : Fin n) (q : Fin n2)
    (hc : n0 + n1 + q.val = c.val) :
    concatenate ⟨2, ![a, n]⟩ 1 [⟨⟨2, ![a, n0]⟩, A⟩, ⟨⟨2, ![a, n1]⟩, B⟩, ⟨⟨2, ![a, n2]⟩, C⟩] h (ix2 p c) = C (ix2 p q) :=
  concatenate_apply_piece (t := ⟨2, ![a, n]⟩) (1 : Fin 2) [⟨⟨2, ![a, n0]⟩, A⟩, ⟨⟨2, ![a, n1]⟩, B⟩, ⟨⟨2, ![a, n2]⟩, C⟩] h (ix2 p c) 2 (by show (2 : ℕ) < 3; omega) _ C rfl rfl (n0 + n1) rfl
    (ix2 p q) (fun b hb => by match b with | ⟨0, _⟩ => rfl | ⟨1, _⟩ => exact absurd rfl hb) hc

/-- A dense layer on a block of rows, read at (r, c): the product into the zero accumulator is the sum over the
    shared extent, the bias row is repeated along the rows; then the entrywise maximum with a constant. -/
theorem relu_affine_apply {a k b : ℕ} {φ₁ φ₂ : FTy}
    (D : DotDims ⟨2, ![a, k]⟩ ⟨2, ![k, b]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (L : FVec Ideal ⟨2, ![a, k]⟩ φ₁) (R : FVec Ideal ⟨2, ![k, b]⟩ φ₂) (B : FVec Ideal ⟨2, ![1, b]⟩ .f32)
    (hb : (⟨2, ![1, b]⟩ : Shape).Broadcasts ⟨2, ![a, b]⟩) (z : Ideal .f32) (r : Fin a) (c : Fin b) :
    maximumf (addf (matmul D none L R (constant ⟨2, ![a, b]⟩ .f32 0x00000000#32)) (broadcastTo ⟨2, ![a, b]⟩ B hb)) (broadcast ⟨2, ![a, b]⟩ z) (ix2 r c)
      = max (∑ u : Fin k, L (ix2 r u) * R (ix2 u c) + B (ix2 (0 : Fin 1) c)) z := by
  have h1 := matmul_rows_apply D hr hs hl0 hl1 hr0 hr1 none L R r c
  have h2 := row_bcast_apply B hb r c
  show max (FloatOps.matmul D none L R (constant ⟨2, ![a, b]⟩ .f32 0x00000000#32) (ix2 r c) + broadcastTo ⟨2, ![a, b]⟩ B hb (ix2 r c)) z = _
  rw [h1, h2]

/-- The same without the maximum. -/
theorem affine_apply {a k b : ℕ} {φ₁ φ₂ : FTy}
    (D : DotDims ⟨2, ![a, k]⟩ ⟨2, ![k, b]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (L : FVec Ideal ⟨2, ![a, k]⟩ φ₁) (R : FVec Ideal ⟨2, ![k, b]⟩ φ₂) (B : FVec Ideal ⟨2, ![1, b]⟩ .f32)
    (hb : (⟨2, ![1, b]⟩ : Shape).Broadcasts ⟨2, ![a, b]⟩) (r : Fin a) (c : Fin b) :
    addf (matmul D none L R (constant ⟨2, ![a, b]⟩ .f32 0x00000000#32)) (broadcastTo ⟨2, ![a, b]⟩ B hb) (ix2 r c)
      = ∑ u : Fin k, L (ix2 r u) * R (ix2 u c) + B (ix2 (0 : Fin 1) c) := by
  have h1 := matmul_rows_apply D hr hs hl0 hl1 hr0 hr1 none L R r c
  have h2 := row_bcast_apply B hb r c
  show FloatOps.matmul D none L R (constant ⟨2, ![a, b]⟩ .f32 0x00000000#32) (ix2 r c) + broadcastTo ⟨2, ![a, b]⟩ B hb (ix2 r c) = _
  rw [h1, h2]

/-- Column q of the scalars' block, loaded as a [4096,1] column: its entry (p, 0) is the block's (p, q). -/
theorem ld_reward (x1 : Vec Ideal S4096x3 .f32) (p : Fin 4096) :
    View.ld x1 rReward (ix2 p (0 : Fin 1)) = x1 (ix2 p (0 : Fin 3)) := by
  show x1 (rReward.idx (ix2 p (0 : Fin 1))) = _
  refine congrArg x1 (funext fun d => Fin.ext ?_)
  match d with
  | ⟨0, _⟩ => show 0 + 1 * p.val = p.val; omega
  | ⟨1, _⟩ => rfl
theorem ld_action (x1 : Vec Ideal S4096x3 .f32) (p : Fin 4096) :
    View.ld x1 rAction (ix2 p (0 : Fin 1)) = x1 (ix2 p (1 : Fin 3)) := by
  show x1 (rAction.idx (ix2 p (0 : Fin 1))) = _
  refine congrArg x1 (funext fun d => Fin.ext ?_)
  match d with
  | ⟨0, _⟩ => show 0 + 1 * p.val = p.val; omega
  | ⟨1, _⟩ => rfl
theorem ld_noise (x1 : Vec Ideal S4096x3 .f32) (p : Fin 4096) :
    View.ld x1 rNoise (ix2 p (0 : Fin 1)) = x1 (ix2 p (2 : Fin 3)) := by
  show x1 (rNoise.idx (ix2 p (0 : Fin 1))) = _
  refine congrArg x1 (funext fun d => Fin.ext ?_)
  match d with
  | ⟨0, _⟩ => show 0 + 1 * p.val = p.val; omega
  | ⟨1, _⟩ => rfl

/-! ## The stages of the body as arrays -/

/-- First layer on the block: rectified (frame block · W1ᵀ + b1 row). -/
def layer1 (v0 : Vec Ideal S4096x512 .f32) (v3 : Vec Ideal S512x400 .f32) (v7 : Vec Ideal S1x400 .f32) : FVec Ideal S4096x400 .f32 :=
  maximumf (addf (matmul dot_S4096x512_S512x400_S4096x400_1_0_0_1_n_n none
      (truncf .bf16 (shapeCast S4096x512 v0 shapeCasts_S4096x512_S4096x512 : FVec Ideal S4096x512 .f32) bitsLt_bf16_f32)
      (truncf .bf16 (shapeCast S512x400 v3 shapeCasts_S512x400_S512x400 : FVec Ideal S512x400 .f32) bitsLt_bf16_f32) (constant S4096x400 .f32 0x00000000#32))
    (broadcastTo S4096x400 (shapeCast S1x400 v7 shapeCasts_S1x400_S1x400 : FVec Ideal S1x400 .f32) broadcasts_S1x400_S4096x400))
    (broadcast S4096x400 (Scalar.ofBits .f32 0x00000000#32))

/-- Second layer on the block. -/
def layer2 (h : FVec Ideal S4096x400 .f32) (v14 : Vec Ideal S400x300 .f32) (v18 : Vec Ideal S1x300 .f32) : FVec Ideal S4096x300 .f32 :=
  maximumf (addf (matmul dot_S4096x400_S400x300_S4096x300_1_0_0_1_n_n none
      (truncf .bf16 h bitsLt_bf16_f32)
      (truncf .bf16 (shapeCast S400x300 v14 shapeCasts_S400x300_S400x300 : FVec Ideal S400x300 .f32) bitsLt_bf16_f32) (constant S4096x300 .f32 0x00000000#32))
    (broadcastTo S4096x300 (shapeCast S1x300 v18 shapeCasts_S1x300_S1x300 : FVec Ideal S1x300 .f32) broadcasts_S1x300_S4096x300))
    (broadcast S4096x300 (Scalar.ofBits .f32 0x00000000#32))

/-- The reward column clipped to [-1, 1]. -/
def clipCol (v24 : Vec Ideal S4096x1 .f32) : FVec Ideal S4096x1 .f32 :=
  minimumf (broadcast S4096x1 (Scalar.ofBits .f32 0x3F800000#32))
    (maximumf (broadcast S4096x1 (Scalar.ofBits .f32 0xBF800000#32)) (shapeCast S4096x1 v24 shapeCasts_S4096x1_S4096x1 : FVec Ideal S4096x1 .f32))

/-- The three heads on the block: core · stacked matrix + bias row. -/
def headArr (cr : FVec Ideal S4096x302 .f32) (v35 : Vec Ideal S302x3 .f32) (v38 : Vec Ideal S1x3 .f32) : FVec Ideal S4096x3 .f32 :=
  addf (matmul dot_S4096x302_S302x3_S4096x3_1_0_0_1_n_n none cr (shapeCast S302x3 v35 shapeCasts_S302x3_S302x3 : FVec Ideal S302x3 .f32) (constant S4096x3 .f32 0x00000000#32))
    (broadcastTo S4096x3 (shapeCast S1x3 v38 shapeCasts_S1x3_S1x3 : FVec Ideal S1x3 .f32) broadcasts_S1x3_S4096x3)

theorem layer1_apply (v0 : Vec Ideal S4096x512 .f32) (v3 : Vec Ideal S512x400 .f32) (v7 : Vec Ideal S1x400 .f32) (p : Fin 4096) (a : Fin 400) :
    layer1 v0 v3 v7 (ix2 p a) = hidden1 (fun k => v0 (ix2 p k)) (fun a k => v3 (ix2 k a)) (fun a => v7 (ix2 (0 : Fin 1) a)) a := by
  unfold layer1
  simp only [shapeCast_self]
  exact relu_affine_apply dot_S4096x512_S512x400_S4096x400_1_0_0_1_n_n rfl rfl (fun _ _ => rfl) (fun _ _ => rfl) (fun _ _ => rfl) (fun _ _ => rfl) _ _ _ _ _ p a

theorem layer2_apply (h : FVec Ideal S4096x400 .f32) (v14 : Vec Ideal S400x300 .f32) (v18 : Vec Ideal S1x300 .f32) (p : Fin 4096) (j : Fin 300) :
    layer2 h v14 v18 (ix2 p j) = hidden2 (fun a => h (ix2 p a)) (fun j a => v14 (ix2 a j)) (fun j => v18 (ix2 (0 : Fin 1) j)) j := by
  unfold layer2
  simp only [shapeCast_self]
  exact relu_affine_apply dot_S4096x400_S400x300_S4096x300_1_0_0_1_n_n rfl rfl (fun _ _ => rfl) (fun _ _ => rfl) (fun _ _ => rfl) (fun _ _ => rfl) _ _ _ _ _ p j

theorem headArr_apply (cr : FVec Ideal S4096x302 .f32) (v35 : Vec Ideal S302x3 .f32) (v38 : Vec Ideal S1x3 .f32) (p : Fin 4096) (j : Fin 3) :
    headArr cr v35 v38 (ix2 p j) = head (fun k => cr (ix2 p k)) (fun j k => v35 (ix2 k j)) (fun j => v38 (ix2 (0 : Fin 1) j)) j := by
  unfold headArr
  simp only [shapeCast_self]
  exact affine_apply dot_S4096x302_S302x3_S4096x3_1_0_0_1_n_n rfl rfl (fun _ _ => rfl) (fun _ _ => rfl) (fun _ _ => rfl) (fun _ _ => rfl) _ _ _ _ p j

/-! ## The core row -/

theorem pay3_eq (v0 : Vec Ideal S4096x512 .f32) (v3 : Vec Ideal S512x400 .f32) (v7 : Vec Ideal S1x400 .f32) (v14 : Vec Ideal S400x300 .f32)
    (v18 : Vec Ideal S1x300 .f32) (v24 v30 : Vec Ideal S4096x1 .f32) :
    k0_pay3 (F := Ideal) v0 v3 v7 v14 v18 v24 v30
      = concatenate S4096x302 1 [⟨S4096x300, layer2 (layer1 v0 v3 v7) v14 v18⟩, ⟨S4096x1, clipCol v24⟩,
          ⟨S4096x1, shapeCast S4096x1 v30 shapeCasts_S4096x1_S4096x1⟩] concatenates_S4096x300_S4096x1_S4096x1_S4096x302_d1 := rfl

/-- The core row of block row p: the second layer's units, the clipped reward, the action. -/
theorem pay3_apply (v0 : Vec Ideal S4096x512 .f32) (v3 : Vec Ideal S512x400 .f32) (v7 : Vec Ideal S1x400 .f32) (v14 : Vec Ideal S400x300 .f32)
    (v18 : Vec Ideal S1x300 .f32) (v24 v30 : Vec Ideal S4096x1 .f32) (p : Fin 4096) (k : Fin 302) :
    k0_pay3 (F := Ideal) v0 v3 v7 v14 v18 v24 v30 (ix2 p k)
      = core (hidden2 (hidden1 (fun u => v0 (ix2 p u)) (fun a u => v3 (ix2 u a)) (fun a => v7 (ix2 (0 : Fin 1) a)))
          (fun j a => v14 (ix2 a j)) (fun j => v18 (ix2 (0 : Fin 1) j))) (v24 (ix2 p (0 : Fin 1))) (v30 (ix2 p (0 : Fin 1))) k := by
  rw [pay3_eq]
  unfold core
  by_cases h0 : k.val < 300
  · rw [dif_pos h0]
    rw [concat3_left _ _ _ concatenates_S4096x300_S4096x1_S4096x1_S4096x302_d1 p k h0]
    rw [layer2_apply]
    exact congrArg (fun h => hidden2 h _ _ _) (funext fun a => layer1_apply v0 v3 v7 p a)
  · rw [dif_neg h0]
    by_cases h1 : k.val = 300
    · rw [if_pos h1]
      rw [concat3_mid _ _ _ concatenates_S4096x300_S4096x1_S4096x1_S4096x302_d1 p k (0 : Fin 1) (by show 300 + 0 = k.val; omega)]
      unfold clipCol
      simp only [shapeCast_self]
      rfl
    · rw [if_neg h1]
      have hk : k.val = 301 := by have := k.isLt; omega
      rw [concat3_right _ _ _ concatenates_S4096x300_S4096x1_S4096x1_S4096x302_d1 p k (0 : Fin 1) (by show 300 + 1 + 0 = k.val; omega)]
      simp only [shapeCast_self]

/-! ## The stored row -/

theorem pay1_eq (v33 : FVec Ideal S4096x1 .f32) (v34 : FVec Ideal S4096x302 .f32) (v35 : Vec Ideal S302x3 .f32) (v38 : Vec Ideal S1x3 .f32) :
    k0_pay1 (F := Ideal) v33 v34 v35 v38
      = concatenate S4096x4 1
          [⟨S4096x2, logistic (extractStridedSlice S4096x2 ![0, 0] (headArr v34 v35 v38) slices_S4096x3_o0_0_S4096x2)⟩,
           ⟨S4096x1, extractStridedSlice S4096x1 ![0, 2] (headArr v34 v35 v38) slices_S4096x3_o0_2_S4096x1⟩,
           ⟨S4096x1, addf (extractStridedSlice S4096x1 ![0, 0] (logistic (extractStridedSlice S4096x2 ![0, 0] (headArr v34 v35 v38) slices_S4096x3_o0_0_S4096x2)) slices_S4096x2_o0_0_S4096x1)
              (mulf (extractStridedSlice S4096x1 ![0, 1] (logistic (extractStridedSlice S4096x2 ![0, 0] (headArr v34 v35 v38) slices_S4096x3_o0_0_S4096x2)) slices_S4096x2_o0_1_S4096x1) v33)⟩]
          concatenates_S4096x2_S4096x1_S4096x1_S4096x4_d1 := rfl

/-- The two sigmoid columns at (p, q): σ of head q. -/
theorem sig_apply (hd : FVec Ideal S4096x3 .f32) (p : Fin 4096) (q : Fin 2) :
    logistic (extractStridedSlice S4096x2 ![0, 0] hd slices_S4096x3_o0_0_S4096x2) (ix2 p q)
      = Ideal.logistic (hd (ix2 p (⟨q.val, by omega⟩ : Fin 3))) := by
  show Ideal.logistic (extractStridedSlice S4096x2 ![0, 0] hd slices_S4096x3_o0_0_S4096x2 (ix2 p q)) = _
  rw [extractStridedSlice_apply ![0, 0] hd slices_S4096x3_o0_0_S4096x2 (ix2 p q) (ix2 p (⟨q.val, by omega⟩ : Fin 3))
    (fun a => by match a with | ⟨0, _⟩ => (show p.val = 0 + p.val; omega) | ⟨1, _⟩ => (show q.val = 0 + q.val; omega))]

/-- The stored row of block row p from the core row, the noise column and the head buffers. -/
theorem pay1_apply (v33 : FVec Ideal S4096x1 .f32) (v34 : FVec Ideal S4096x302 .f32) (v35 : Vec Ideal S302x3 .f32) (v38 : Vec Ideal S1x3 .f32)
    (p : Fin 4096) (j : Fin 4) :
    k0_pay1 (F := Ideal) v33 v34 v35 v38 (ix2 p j)
      = outOfHeads (head (fun k => v34 (ix2 p k)) (fun j k => v35 (ix2 k j)) (fun j => v38 (ix2 (0 : Fin 1) j))) (v33 (ix2 p (0 : Fin 1))) j := by
  rw [pay1_eq]
  unfold outOfHeads
  match j with
  | ⟨0, hj⟩ =>
    rw [if_pos (by simp)]
    rw [concat3_left _ _ _ concatenates_S4096x2_S4096x1_S4096x1_S4096x4_d1 p (⟨0, hj⟩ : Fin 4) (by show (0 : ℕ) < 2; omega)]
    rw [sig_apply, headArr_apply]
    rfl
  | ⟨1, hj⟩ =>
    rw [if_neg (by simp), if_pos (by simp)]
    rw [concat3_left _ _ _ concatenates_S4096x2_S4096x1_S4096x1_S4096x4_d1 p (⟨1, hj⟩ : Fin 4) (by show (1 : ℕ) < 2; omega)]
    rw [sig_apply, headArr_apply]
    rfl
  | ⟨2, hj⟩ =>
    rw [if_neg (by simp), if_neg (by simp), if_pos (by simp)]
    rw [concat3_mid _ _ _ concatenates_S4096x2_S4096x1_S4096x1_S4096x4_d1 p (⟨2, hj⟩ : Fin 4) (0 : Fin 1) (by show 2 + 0 = 2; rfl)]
    rw [extractStridedSlice_apply ![0, 2] _ slices_S4096x3_o0_2_S4096x1 (ix2 p (0 : Fin 1)) (ix2 p (2 : Fin 3))
      (fun a => by match a with | ⟨0, _⟩ => (show p.val = 0 + p.val; omega) | ⟨1, _⟩ => rfl)]
    rw [headArr_apply]
  | ⟨3, hj⟩ =>
    rw [if_neg (by simp), if_neg (by simp), if_neg (by simp)]
    rw [concat3_right _ _ _ concatenates_S4096x2_S4096x1_S4096x1_S4096x4_d1 p (⟨3, hj⟩ : Fin 4) (0 : Fin 1) (by show 2 + 1 + 0 = 3; rfl)]
    rw [addf_apply, mulf_apply]
    rw [extractStridedSlice_apply ![0, 0] _ slices_S4096x2_o0_0_S4096x1 (ix2 p (0 : Fin 1)) (ix2 p (0 : Fin 2))
        (fun a => by match a with | ⟨0, _⟩ => (show p.val = 0 + p.val; omega) | ⟨1, _⟩ => rfl),
      extractStridedSlice_apply ![0, 1] _ slices_S4096x2_o0_1_S4096x1 (ix2 p (0 : Fin 1)) (ix2 p (1 : Fin 2))
        (fun a => by match a with | ⟨0, _⟩ => (show p.val = 0 + p.val; omega) | ⟨1, _⟩ => rfl)]
    rw [sig_apply, sig_apply, headArr_apply, headArr_apply]
    rfl

/-! ## The whole block -/

theorem hz : (![0, 0] : Fin 2 → Nat) = fun _ => 0 := funext fun a => by fin_cases a <;> rfl

/-- Entry (p, j) of what the body stores: `rowOut` of row p of the frame block and of the scalars' block,
    and the weight buffers read with their axes as stored (the layer matrices and the head matrix transposed). -/
theorem outBlock_apply (x0 : Vec Ideal S4096x512 .f32) (x1 : Vec Ideal S4096x3 .f32) (x2 : Vec Ideal S512x400 .f32) (x3 : Vec Ideal S1x400 .f32)
    (x4 : Vec Ideal S400x300 .f32) (x5 : Vec Ideal S1x300 .f32) (x6 : Vec Ideal S302x3 .f32) (x7 : Vec Ideal S1x3 .f32) (p : Fin 4096) (j : Fin 4) :
    outBlock (F := Ideal) x0 x1 x2 x3 x4 x5 x6 x7 (ix2 p j)
      = rowOut (fun k => x0 (ix2 p k)) (x1 (ix2 p (0 : Fin 3))) (x1 (ix2 p (1 : Fin 3))) (x1 (ix2 p (2 : Fin 3)))
          (fun a k => x2 (ix2 k a)) (fun a => x3 (ix2 (0 : Fin 1) a)) (fun j a => x4 (ix2 a j)) (fun j => x5 (ix2 (0 : Fin 1) j))
          (fun j k => x6 (ix2 k j)) (fun j => x7 (ix2 (0 : Fin 1) j)) j := by
  unfold outBlock
  rw [View.canon_unit_zero hz]
  simp only [View.ld_unit_zero (S := S4096x512) hz, View.ld_unit_zero (S := S512x400) hz, View.ld_unit_zero (S := S1x400) hz,
    View.ld_unit_zero (S := S400x300) hz, View.ld_unit_zero (S := S1x300) hz, View.ld_unit_zero (S := S302x3) hz, View.ld_unit_zero (S := S1x3) hz]
  rw [pay1_apply]
  unfold rowOut
  have hnoise : k0_pay2 (F := Ideal) (View.ld x1 rNoise) (ix2 p (0 : Fin 1)) = x1 (ix2 p (2 : Fin 3)) := by
    unfold k0_pay2; simp only [shapeCast_self]; exact ld_noise x1 p
  rw [hnoise]
  refine congrArg (fun cr => outOfHeads (head cr _ _) _ j) (funext fun k => ?_)
  rw [pay3_apply, ld_reward, ld_action]

end Cert.KernelIdeal.Hand

end
-- ==== Proof.IdealArray.lean ====
/-
  From blocks to the array.  Grid point t stages rows 4096·t … 4096·t + 4095 of the frames and of the
  scalars and all of every weight buffer, and writes back rows 4096·t … of the [131072,4] result.  Row p
  of what it writes is the row specification of row 4096·t + p of the operands, so the 32 write-backs,
  which tile the result, leave it at ONE function of the operand arrays; the host line after the region
  reshapes that to [64, 2048, 4].
-/
import proofs.«169553_j53635551592612_2_alg».proof.Proof.IdealRun
import proofs.«169553_j53635551592612_2_alg».proof.Proof.IdealPayload
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx Cert.RowSpec
open Idealize.ShloMosaic.Pipeline (Dat Cfg Window)

variable (m : (ℓ : Loc nD τ sig) → Buf (Elt Ideal) ℓ) (ρ : Dev nD → PrngReg)

/-! ## The block indices over the grid -/

/-- The frames', the scalars' and the result's blocks move with the point along the rows; every weight
    buffer's block stays at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Row p of point t's blocks is row 4096·t + p of the arrays. -/
def blockRow (t : Fin cfg0.N) (p : Fin 4096) : Fin 131072 :=
  ⟨t.val * 4096 + p.val, by have h : t.val < 32 := lt_of_lt_of_eq t.isLt (show cfg0.N = 32 from N_0); have := p.isLt; omega⟩

/-! ## Each input block read off its array -/

theorem iblk0_apply (c : Dev nD) (t : Fin cfg0.N) (p : Fin 4096) (k : Fin 512) :
    iblk m c 0 t (ix2 p k) = V m c main_v0 (ix2 (blockRow t p) k) := by
  obtain ⟨f00, f01, f10, f11, f20, f21, f30, f31, f40, f41, f50, f51, f60, f61, f70, f71, f80, f81⟩ := idx_facts t
  show V m c main_v0 (((cfg0.win 0).blk t).view.emb (ix2 p k)) = _
  refine congrArg (V m c main_v0) (funext fun a => Fin.ext ?_)
  match a with
  | ⟨0, _⟩ => show win0_0.index t (0 : Fin 2) * 4096 + 1 * p.val = t.val * 4096 + p.val; omega
  | ⟨1, _⟩ => show win0_0.index t (1 : Fin 2) * 512 + 1 * k.val = k.val; omega

theorem iblk1_apply (c : Dev nD) (t : Fin cfg0.N) (p : Fin 4096) (q : Fin 3) :
    iblk m c 1 t (ix2 p q) = V m c main_v7 (ix2 (blockRow t p) q) := by
  obtain ⟨f00, f01, f10, f11, f20, f21, f30, f31, f40, f41, f50, f51, f60, f61, f70, f71, f80, f81⟩ := idx_facts t
  show V m c main_v7 (((cfg0.win 1).blk t).view.emb (ix2 p q)) = _
  refine congrArg (V m c main_v7) (funext fun a => Fin.ext ?_)
  match a with
  | ⟨0, _⟩ => show win0_1.index t (0 : Fin 2) * 4096 + 1 * p.val = t.val * 4096 + p.val; omega
  | ⟨1, _⟩ => show win0_1.index t (1 : Fin 2) * 3 + 1 * q.val = q.val; omega

theorem iblk2_eq (c : Dev nD) (t : Fin cfg0.N) : iblk m c 2 t = V m c main_v8 := by
  obtain ⟨f00, f01, f10, f11, f20, f21, f30, f31, f40, f41, f50, f51, f60, f61, f70, f71, f80, f81⟩ := idx_facts t
  refine funext fun (y : S512x400.Idx) => ?_
  show V m c main_v8 (((cfg0.win 2).blk t).view.emb y) = V m c main_v8 y
  refine congrArg (V m c main_v8) (funext fun a => Fin.ext ?_)
  match a with
  | ⟨0, _⟩ => show win0_2.index t (0 : Fin 2) * 512 + 1 * (y 0).val = (y 0).val; omega
  | ⟨1, _⟩ => show win0_2.index t (1 : Fin 2) * 400 + 1 * (y 1).val = (y 1).val; omega

theorem iblk3_eq (c : Dev nD) (t : Fin cfg0.N) : iblk m c 3 t = V m c main_v14 := by
  obtain ⟨f00, f01, f10, f11, f20, f21, f30, f31, f40, f41, f50, f51, f60, f61, f70, f71, f80, f81⟩ := idx_facts t
  refine funext fun (y : S1x400.Idx) => ?_
  show V m c main_v14 (((cfg0.win 3).blk t).view.emb y) = V m c main_v14 y
  refine congrArg (V m c main_v14) (funext fun a => Fin.ext ?_)
  match a with
  | ⟨0, _⟩ => show win0_3.index t (0 : Fin 2) * 1 + 1 * (y 0).val = (y 0).val; omega
  | ⟨1, _⟩ => show win0_3.index t (1 : Fin 2) * 400 + 1 * (y 1).val = (y 1).val; omega

theorem iblk4_eq (c : Dev nD) (t : Fin cfg0.N) : iblk m c 4 t = V m c main_v9 := by
  obtain ⟨f00, f01, f10, f11, f20, f21, f30, f31, f40, f41, f50, f51, f60, f61, f70, f71, f80, f81⟩ := idx_facts t
  refine funext fun (y : S400x300.Idx) => ?_
  show V m c main_v9 (((cfg0.win 4).blk t).view.emb y) = V m c main_v9 y
  refine congrArg (V m c main_v9) (funext fun a => Fin.ext ?_)
  match a with
  | ⟨0, _⟩ => show win0_4.index t (0 : Fin 2) * 400 + 1 * (y 0).val = (y 0).val; omega
  | ⟨1, _⟩ => show win0_4.index t (1 : Fin 2) * 300 + 1 * (y 1).val = (y 1).val; omega

theorem iblk5_eq (c : Dev nD) (t : Fin cfg0.N) : iblk m c 5 t = V m c main_v15 := by
  obtain ⟨f00, f01, f10, f11, f20, f21, f30, f31, f40, f41, f50, f51, f60, f61, f70, f71, f80, f81⟩ := idx_facts t
  refine funext fun (y : S1x300.Idx) => ?_
  show V m c main_v15 (((cfg0.win 5).blk t).view.emb y) = V m c main_v15 y
  refine congrArg (V m c main_v15) (funext fun a => Fin.ext ?_)
  match a with
  | ⟨0, _⟩ => show win0_5.index t (0 : Fin 2) * 1 + 1 * (y 0).val = (y 0).val; omega
  | ⟨1, _⟩ => show win0_5.index t (1 : Fin 2) * 300 + 1 * (y 1).val = (y 1).val; omega

theorem iblk6_eq (c : Dev nD) (t : Fin cfg0.N) : iblk m c 6 t = V m c main_v11 := by
  obtain ⟨f00, f01, f10, f11, f20, f21, f30, f31, f40, f41, f50, f51, f60, f61, f70, f71, f80, f81⟩ := idx_facts t
  refine funext fun (y : S302x3.Idx) => ?_
  show V m c main_v11 (((cfg0.win 6).blk t).view.emb y) = V m c main_v11 y
  refine congrArg (V m c main_v11) (funext fun a => Fin.ext ?_)
  match a with
  | ⟨0, _⟩ => show win0_6.index t (0 : Fin 2) * 302 + 1 * (y 0).val = (y 0).val; omega
  | ⟨1, _⟩ => show win0_6.index t (1 : Fin 2) * 3 + 1 * (y 1).val = (y 1).val; omega

theorem iblk7_eq (c : Dev nD) (t : Fin cfg0.N) : iblk m c 7 t = V m c main_v13 := by
  obtain ⟨f00, f01, f10, f11, f20, f21, f30, f31, f40, f41, f50, f51, f60, f61, f70, f71, f80, f81⟩ := idx_facts t
  refine funext fun (y : S1x3.Idx) => ?_
  show V m c main_v13 (((cfg0.win 7).blk t).view.emb y) = V m c main_v13 y
  refine congrArg (V m c main_v13) (funext fun a => Fin.ext ?_)
  match a with
  | ⟨0, _⟩ => show win0_7.index t (0 : Fin 2) * 1 + 1 * (y 0).val = (y 0).val; omega
  | ⟨1, _⟩ => show win0_7.index t (1 : Fin 2) * 3 + 1 * (y 1).val = (y 1).val; omega

/-! ## The result array as one function of the operand arrays -/

/-- Row i₀ of the [131072,4] result from row i₀ of the frames and scalars and the weight buffers (stored transposed). -/
def wholeOut (X : S131072x512.Idx → EReal) (Aux : S131072x3.Idx → EReal) (W1T : S512x400.Idx → EReal) (B1 : S1x400.Idx → EReal)
    (W2T : S400x300.Idx → EReal) (B2 : S1x300.Idx → EReal) (WhT : S302x3.Idx → EReal) (Bh : S1x3.Idx → EReal) : S131072x4.Idx → EReal :=
  fun i => rowOut (fun k => X (ix2 (i 0 : Fin 131072) k)) (Aux (ix2 (i 0 : Fin 131072) (0 : Fin 3))) (Aux (ix2 (i 0 : Fin 131072) (1 : Fin 3)))
    (Aux (ix2 (i 0 : Fin 131072) (2 : Fin 3))) (fun a k => W1T (ix2 k a)) (fun a => B1 (ix2 (0 : Fin 1) a)) (fun j a => W2T (ix2 a j))
    (fun j => B2 (ix2 (0 : Fin 1) j)) (fun j k => WhT (ix2 k j)) (fun j => Bh (ix2 (0 : Fin 1) j)) (i 1 : Fin 4)

/-- What point t writes back is block t of `wholeOut` of the arrays as the region finds them. -/
theorem flushed_eq (c : Dev nD) (t : Fin cfg0.N) :
    (dats m 0 c).flushed 8 t = ((cfg0.win 8).blk t).view.read (Elt Ideal) (wholeOut (V m c main_v0) (V m c main_v7) (V m c main_v8) (V m c main_v14) (V m c main_v9) (V m c main_v15) (V m c main_v11) (V m c main_v13)) := by
  show (cfg0.win 8).cut (grid0.coords t) ((dats m 0 c).after 8 t) = _
  rw [after0_8]
  obtain ⟨f00, f01, f10, f11, f20, f21, f30, f31, f40, f41, f50, f51, f60, f61, f70, f71, f80, f81⟩ := idx_facts t
  refine funext fun (y : S4096x4.Idx) => ?_
  obtain ⟨p, j, rfl⟩ : ∃ (p : Fin 4096) (j : Fin 4), y = ix2 p j := ⟨y 0, y 1, eq_ix2 y⟩
  have he : ((cfg0.win 8).blk t).view.emb (ix2 p j) = ix2 (blockRow t p) j := funext fun a => Fin.ext (by
    match a with
    | ⟨0, _⟩ => show win0_8.index t (0 : Fin 2) * 4096 + 1 * p.val = t.val * 4096 + p.val; omega
    | ⟨1, _⟩ => show win0_8.index t (1 : Fin 2) * 4 + 1 * j.val = j.val; omega)
  show outBlock (iblk m c 0 t) (iblk m c 1 t) (iblk m c 2 t) (iblk m c 3 t) (iblk m c 4 t) (iblk m c 5 t) (iblk m c 6 t) (iblk m c 7 t) (ix2 p j)
    = wholeOut (V m c main_v0) (V m c main_v7) (V m c main_v8) (V m c main_v14) (V m c main_v9) (V m c main_v15) (V m c main_v11) (V m c main_v13) (((cfg0.win 8).blk t).view.emb (ix2 p j))
  rw [he]
  refine (outBlock_apply (iblk m c 0 t) (iblk m c 1 t) (iblk m c 2 t) (iblk m c 3 t) (iblk m c 4 t) (iblk m c 5 t) (iblk m c 6 t) (iblk m c 7 t) p j).trans ?_
  simp only [iblk0_apply, iblk1_apply, iblk2_eq, iblk3_eq, iblk4_eq, iblk5_eq, iblk6_eq, iblk7_eq]
  rfl

/-- An index of the result is in point t's block iff each coordinate is in the block's range. -/
theorem mem_blk (t : Fin cfg0.N) (i : S131072x4.Idx) :
    i ∈ ((cfg0.win 8).blk t).view.set ↔ ∀ a : Fin 2, win0_8.index t a * S4096x4.size a ≤ (i a).val ∧ (i a).val < win0_8.index t a * S4096x4.size a + S4096x4.size a := by
  show i ∈ ((View.whole main_v16).slice (win0_8.rect t)).set ↔ _
  rw [View.set_slice_whole, Rect.mem_set_unit]
  exact Iff.rfl

/-- Row r of the result is written back at point r / 4096. -/
theorem cover (i : S131072x4.Idx) : ∃ t : Fin cfg0.N, (cfg0.win 8).flush t = true ∧ i ∈ ((cfg0.win 8).blk t).view.set := by
  have hi0 : (i 0).val < 131072 := (i 0).isLt
  have hi1 : (i 1).val < 4 := (i 1).isLt
  have hN : cfg0.N = 32 := N_0
  have ht : (i 0).val / 4096 < cfg0.N := by omega
  obtain ⟨f00, f01, f10, f11, f20, f21, f30, f31, f40, f41, f50, f51, f60, f61, f70, f71, f80, f81⟩ := idx_facts ⟨(i 0).val / 4096, ht⟩
  refine ⟨⟨(i 0).val / 4096, ht⟩, flush0_8 _, ?_⟩
  rw [mem_blk]
  intro a
  match a with
  | ⟨0, _⟩ =>
    show win0_8.index ⟨(i 0).val / 4096, ht⟩ (0 : Fin 2) * 4096 ≤ (i 0).val ∧ (i 0).val < win0_8.index ⟨(i 0).val / 4096, ht⟩ (0 : Fin 2) * 4096 + 4096
    have hv : (⟨(i 0).val / 4096, ht⟩ : Fin cfg0.N).val = (i 0).val / 4096 := rfl
    omega
  | ⟨1, _⟩ =>
    show win0_8.index ⟨(i 0).val / 4096, ht⟩ (1 : Fin 2) * 4 ≤ (i 1).val ∧ (i 1).val < win0_8.index ⟨(i 0).val / 4096, ht⟩ (1 : Fin 2) * 4 + 4
    omega

/-- The result array after the region. -/
theorem final (c : Dev nD) : (dats m 0 c).arrAt 8 cfg0.N = wholeOut (V m c main_v0) (V m c main_v7) (V m c main_v8) (V m c main_v14) (V m c main_v9) (V m c main_v15) (V m c main_v11) (V m c main_v13) :=
  (dats m 0 c).arrAt_eq_of_cover 8 _ (fun t _ => flushed_eq m c t) cover

/-! ## The host line after the region -/

/-- What @main returns: the result array reshaped to [64, 2048, 4]. -/
theorem tail_result (c : Dev nD) :
    (Pipeline.afterTail₀ cfgs (dats m) 0 (V0 m) [hostOps1] c main_v17 : S64x2048x4.Idx → EReal)
      = shapeCast S64x2048x4 (wholeOut (V m c main_v0) (V m c main_v7) (V m c main_v8) (V m c main_v14) (V m c main_v9) (V m c main_v15) (V m c main_v11) (V m c main_v13)) shapeCasts_S131072x4_S64x2048x4 := by
  unfold Pipeline.afterTail₀
  show StableHlo.after hostOps1 _ (Proc.devRef .tc main_v17) = _
  after_results
  have hw : Pipeline.withArrays (cfgs 0).spec c (V0 m c) (fun w => (dats m 0 c).arrAt w (cfgs 0).N) (Proc.devRef .tc main_v16)
      = wholeOut (V m c main_v0) (V m c main_v7) (V m c main_v8) (V m c main_v14) (V m c main_v9) (V m c main_v15) (V m c main_v11) (V m c main_v13) :=
    (Pipeline.withArrays_arr spec0 launch0.win.arr_inj c _ _ 8).trans (final m c)
  rw [hw]
  rfl

end Cert.KernelIdeal.Hand

end
-- ==== Proof.IdealOperands.lean ====
/-
  The kernel's operands, read at an index in terms of the arguments.

  Sixteen host lines prepare the operands.  The frames are flattened: row a · 2048 + b, entry k, is entry
  (a, b, k).  The three per-row scalars are laid side by side as the columns of one array: the reward, the
  action converted to a float, the noise.  The two layer matrices are transposed.  The policy's two head rows
  and the baseline's one are stacked and the stack transposed; their biases are stacked likewise and laid as
  a row.  The layer biases are laid as rows.
-/
import proofs.«169553_j53635551592612_2_alg».proof.Proof.IdealAround
import proofs.«169553_j53635551592612_2_alg».proof.Proof.RowSpec
import Idealize.ShloMosaic.Lib.StableHlo.Run
import Idealize.ShloMosaic.Lib.Pipeline.Value
import Idealize.ShloMosaic.Lib.ValueLayout

set_option maxHeartbeats 1000000

noncomputable section

namespace Cert.KernelIdeal.Hand

open Cert.KernelIdeal Cert.KernelIdeal.Gen Idealize.ShloMosaic Idealize.ShloMosaic.TcCoe Idealize.SL.Sem
  Idealize.ShloMosaic.StableHlo Idealize.ShloMosaic.ValueIdx Cert.RowSpec

variable (m : (ℓ : Loc nD τ sig) → Buf (Elt Ideal) ℓ)

/-! ## Each operand as a term of the arguments -/

theorem term_v0 (c : Dev nD) :
    (V m c main_v0 : S131072x512.Idx → EReal)
      = shapeCast S131072x512 (m ((c.tc : Thread nD τ).loc main_arg0)) shapeCasts_S64x2048x512_S131072x512 := by
  show StableHlo.after hostOps0 (fun b => m (c, b)) (Proc.devRef .tc main_v0) = _
  after_results
  rfl

theorem term_v7 (c : Dev nD) :
    (V m c main_v7 : S131072x3.Idx → EReal)
      = concatenate S131072x3 1
          [⟨S131072x1, broadcastInDim S131072x1 ![0] bcast_S131072_S131072x1_0
              (shapeCast S131072 (m ((c.tc : Thread nD τ).loc main_arg1)) shapeCasts_S64x2048_S131072)⟩,
           ⟨S131072x1, broadcastInDim S131072x1 ![0] bcast_S131072_S131072x1_0
              (sitofp (F := Ideal) .f32 (shapeCast S131072 (m ((c.tc : Thread nD τ).loc main_arg2)) shapeCasts_S64x2048_S131072))⟩,
           ⟨S131072x1, broadcastInDim S131072x1 ![0] bcast_S131072_S131072x1_0 (m ((c.tc : Thread nD τ).loc main_arg3))⟩]
          concatenates_S131072x1_S131072x1_S131072x1_S131072x3_d1 := by
  show StableHlo.after hostOps0 (fun b => m (c, b)) (Proc.devRef .tc main_v7) = _
  after_results
  rfl

theorem term_v8 (c : Dev nD) :
    (V m c main_v8 : S512x400.Idx → EReal)
      = transpose S512x400 [1, 0] (m ((c.tc : Thread nD τ).loc main_arg4)) transposes_S400x512_S512x400_1_0 := by
  show StableHlo.after hostOps0 (fun b => m (c, b)) (Proc.devRef .tc main_v8) = _
  after_results

theorem term_v9 (c : Dev nD) :
    (V m c main_v9 : S400x300.Idx → EReal)
      = transpose S400x300 [1, 0] (m ((c.tc : Thread nD τ).loc main_arg6)) transposes_S300x400_S400x300_1_0 := by
  show StableHlo.after hostOps0 (fun b => m (c, b)) (Proc.devRef .tc main_v9) = _
  after_results

theorem term_v11 (c : Dev nD) :
    (V m c main_v11 : S302x3.Idx → EReal)
      = transpose S302x3 [1, 0]
          (concatenate S3x302 0 [⟨S2x302, m ((c.tc : Thread nD τ).loc main_arg8)⟩, ⟨S1x302, m ((c.tc : Thread nD τ).loc main_arg10)⟩]
            concatenates_S2x302_S1x302_S3x302_d0) transposes_S3x302_S302x3_1_0 := by
  show StableHlo.after hostOps0 (fun b => m (c, b)) (Proc.devRef .tc main_v11) = _
  after_results

theorem term_v13 (c : Dev nD) :
    (V m c main_v13 : S1x3.Idx → EReal)
      = shapeCast S1x3
          (concatenate S3 0 [⟨S2, m ((c.tc : Thread nD τ).loc main_arg9)⟩, ⟨S1, m ((c.tc : Thread nD τ).loc main_arg11)⟩]
            concatenates_S2_S1_S3_d0) shapeCasts_S3_S1x3 := by
  show StableHlo.after hostOps0 (fun b => m (c, b)) (Proc.devRef .tc main_v13) = _
  after_results
  rfl

theorem term_v14 (c : Dev nD) :
    (V m c main_v14 : S1x400.Idx → EReal)
      = shapeCast S1x400 (m ((c.tc : Thread nD τ).loc main_arg5)) shapeCasts_S400_S1x400 := by
  show StableHlo.after hostOps0 (fun b => m (c, b)) (Proc.devRef .tc main_v14) = _
  after_results
  rfl

theorem term_v15 (c : Dev nD) :
    (V m c main_v15 : S1x300.Idx → EReal)
      = shapeCast S1x300 (m ((c.tc : Thread nD τ).loc main_arg7)) shapeCasts_S300_S1x300 := by
  show StableHlo.after hostOps0 (fun b => m (c, b)) (Proc.devRef .tc main_v15) = _
  after_results
  rfl

/-! ## The operands at an index -/

/-- The flattened frames: row a · 2048 + b, entry k, is entry (a, b, k). -/
theorem opd_frame (c : Dev nD) (a : Fin 64) (b : Fin 2048) (k : Fin 512) :
    V m c main_v0 (ix2 (flatRow a b) k) = m ((c.tc : Thread nD τ).loc main_arg0) (ix3 a b k) :=
  (congrFun (term_v0 m c) (ix2 (flatRow a b) k)).trans
    (shapeCast_apply _ shapeCasts_S64x2048x512_S131072x512 (ix2 (flatRow a b) k) (ix3 a b k)
      (by rw [Shape.rowMajor_val_three, Shape.rowMajor_val_two]; rfl))

/-- A flat array of 131072 entries laid as one column, read at row r. -/
theorem column_apply {α : Type} (x : S131072.Idx → α) (r : Fin 131072) :
    broadcastInDim S131072x1 ![0] bcast_S131072_S131072x1_0 x (ix2 r (0 : Fin 1)) = x (ix1 r) :=
  broadcastInDim_apply _ bcast_S131072_S131072x1_0 x (ix2 r (0 : Fin 1)) (ix1 r) (fun d => match d with
    | ⟨0, _⟩ => by show r.val = if (131072 : ℕ) = 1 then 0 else r.val; rw [if_neg (by decide)])

/-- A [64, 2048] array flattened, read at a · 2048 + b. -/
theorem flat_apply {α : Type} (x : S64x2048.Idx → α) (a : Fin 64) (b : Fin 2048) :
    shapeCast S131072 x shapeCasts_S64x2048_S131072 (ix1 (flatRow a b)) = x (ix2 a b) :=
  shapeCast_apply x shapeCasts_S64x2048_S131072 (ix1 (flatRow a b)) (ix2 a b)
    (by rw [Shape.rowMajor_val_two, Shape.rowMajor_val_one]; rfl)

/-- Column 0 of the three scalars is the reward. -/
theorem opd_reward (c : Dev nD) (a : Fin 64) (b : Fin 2048) :
    V m c main_v7 (ix2 (flatRow a b) (0 : Fin 3)) = m ((c.tc : Thread nD τ).loc main_arg1) (ix2 a b) := by
  refine (congrFun (term_v7 m c) _).trans ?_
  refine (concatenate_apply_piece (t := S131072x3) (1 : Fin 2) _ _
    (ix2 (flatRow a b) (0 : Fin 3)) 0 (by show (0 : ℕ) < 3; omega) S131072x1 _ rfl rfl 0 rfl (ix2 (flatRow a b) (0 : Fin 1))
    (fun d hd => match d, hd with
      | ⟨0, _⟩, _ => rfl
      | ⟨1, _⟩, hd => absurd rfl hd)
    (by show 0 + 0 = 0; rfl)).trans ?_
  rw [column_apply, flat_apply]

/-- Column 1 is the action, converted to a float. -/
theorem opd_action (c : Dev nD) (a : Fin 64) (b : Fin 2048) :
    V m c main_v7 (ix2 (flatRow a b) (1 : Fin 3))
      = FloatOps.sitofp (F := Ideal) .f32 (m ((c.tc : Thread nD τ).loc main_arg2) (ix2 a b)) := by
  refine (congrFun (term_v7 m c) _).trans ?_
  refine (concatenate_apply_piece (t := S131072x3) (1 : Fin 2) _ _
    (ix2 (flatRow a b) (1 : Fin 3)) 1 (by show (1 : ℕ) < 3; omega) S131072x1 _ rfl rfl 1 rfl (ix2 (flatRow a b) (0 : Fin 1))
    (fun d hd => match d, hd with
      | ⟨0, _⟩, _ => rfl
      | ⟨1, _⟩, hd => absurd rfl hd)
    (by show 1 + 0 = 1; rfl)).trans ?_
  rw [column_apply, sitofp_apply, flat_apply]

/-- Column 2 is the noise, stored flat. -/
theorem opd_noise (c : Dev nD) (a : Fin 64) (b : Fin 2048) :
    V m c main_v7 (ix2 (flatRow a b) (2 : Fin 3)) = m ((c.tc : Thread nD τ).loc main_arg3) (ix1 (flatRow a b)) := by
  refine (congrFun (term_v7 m c) _).trans ?_
  refine (concatenate_apply_piece (t := S131072x3) (1 : Fin 2) _ _
    (ix2 (flatRow a b) (2 : Fin 3)) 2 (by show (2 : ℕ) < 3; omega) S131072x1 _ rfl rfl 2 rfl (ix2 (flatRow a b) (0 : Fin 1))
    (fun d hd => match d, hd with
      | ⟨0, _⟩, _ => rfl
      | ⟨1, _⟩, hd => absurd rfl hd)
    (by show 2 + 0 = 2; rfl)).trans ?_
  rw [column_apply]

/-- The first layer's matrix, transposed. -/
theorem opd_w1 (c : Dev nD) (k : Fin 512) (a : Fin 400) :
    V m c main_v8 (ix2 k a) = m ((c.tc : Thread nD τ).loc main_arg4) (ix2 a k) :=
  (congrFun (term_v8 m c) (ix2 k a)).trans
    (transpose_apply [1, 0] _ transposes_S400x512_S512x400_1_0 (ix2 k a) (ix2 a k) (fun d => match d with
      | ⟨0, _⟩ => rfl
      | ⟨1, _⟩ => rfl))

/-- The first layer's bias, as a row. -/
theorem opd_b1 (c : Dev nD) (a : Fin 400) :
    V m c main_v14 (ix2 (0 : Fin 1) a) = m ((c.tc : Thread nD τ).loc main_arg5) (ix1 a) :=
  (congrFun (term_v14 m c) (ix2 (0 : Fin 1) a)).trans
    (shapeCast_apply _ shapeCasts_S400_S1x400 (ix2 (0 : Fin 1) a) (ix1 a)
      (by rw [Shape.rowMajor_val_one, Shape.rowMajor_val_two]; show a.val = 0 * 400 + a.val; omega))

/-- The second layer's matrix, transposed. -/
theorem opd_w2 (c : Dev nD) (a : Fin 400) (j : Fin 300) :
    V m c main_v9 (ix2 a j) = m ((c.tc : Thread nD τ).loc main_arg6) (ix2 j a) :=
  (congrFun (term_v9 m c) (ix2 a j)).trans
    (transpose_apply [1, 0] _ transposes_S300x400_S400x300_1_0 (ix2 a j) (ix2 j a) (fun d => match d with
      | ⟨0, _⟩ => rfl
      | ⟨1, _⟩ => rfl))

/-- The second layer's bias, as a row. -/
theorem opd_b2 (c : Dev nD) (j : Fin 300) :
    V m c main_v15 (ix2 (0 : Fin 1) j) = m ((c.tc : Thread nD τ).loc main_arg7) (ix1 j) :=
  (congrFun (term_v15 m c) (ix2 (0 : Fin 1) j)).trans
    (shapeCast_apply _ shapeCasts_S300_S1x300 (ix2 (0 : Fin 1) j) (ix1 j)
      (by rw [Shape.rowMajor_val_one, Shape.rowMajor_val_two]; show j.val = 0 * 300 + j.val; omega))

/-- The heads' matrix: the policy's two rows stacked on the baseline's one, transposed. -/
theorem opd_wh (c : Dev nD) (k : Fin 302) (j : Fin 3) :
    V m c main_v11 (ix2 k j)
      = stackW (fun j k => m ((c.tc : Thread nD τ).loc main_arg8) (ix2 j k))
          (fun k => m ((c.tc : Thread nD τ).loc main_arg10) (ix2 0 k)) j k := by
  refine (congrFun (term_v11 m c) (ix2 k j)).trans ?_
  refine (transpose_apply [1, 0] _ transposes_S3x302_S302x3_1_0 (ix2 k j) (ix2 j k) (fun d => match d with
      | ⟨0, _⟩ => rfl
      | ⟨1, _⟩ => rfl)).trans ?_
  unfold stackW
  by_cases h : j.val < 2
  · rw [dif_pos h]
    exact concatenate_apply_piece (t := S3x302) (0 : Fin 2) _ _ (ix2 j k) 0
      (by show (0 : ℕ) < 2; omega) S2x302 _ rfl rfl 0 rfl (ix2 (⟨j.val, h⟩ : Fin 2) k)
      (fun d hd => match d, hd with
        | ⟨0, _⟩, hd => absurd rfl hd
        | ⟨1, _⟩, _ => rfl)
      (Nat.zero_add _)
  · rw [dif_neg h]
    exact concatenate_apply_piece (t := S3x302) (0 : Fin 2) _ _ (ix2 j k) 1
      (by show (1 : ℕ) < 2; omega) S1x302 _ rfl rfl 2 rfl (ix2 (0 : Fin 1) k)
      (fun d hd => match d, hd with
        | ⟨0, _⟩, hd => absurd rfl hd
        | ⟨1, _⟩, _ => rfl)
      (by show 2 + 0 = j.val; omega)

/-- The heads' bias: the policy's two entries then the baseline's one, as a row. -/
theorem opd_bh (c : Dev nD) (j : Fin 3) :
    V m c main_v13 (ix2 (0 : Fin 1) j)
      = stackB (fun j => m ((c.tc : Thread nD τ).loc main_arg9) (ix1 j))
          (m ((c.tc : Thread nD τ).loc main_arg11) (ix1 0)) j := by
  refine (congrFun (term_v13 m c) (ix2 (0 : Fin 1) j)).trans ?_
  refine (shapeCast_apply _ shapeCasts_S3_S1x3 (ix2 (0 : Fin 1) j) (ix1 j)
      (by rw [Shape.rowMajor_val_one, Shape.rowMajor_val_two]; show j.val = 0 * 3 + j.val; omega)).trans ?_
  unfold stackB
  by_cases h : j.val < 2
  · rw [dif_pos h]
    exact concatenate_apply_piece (t := S3) (0 : Fin 1) _ _ (ix1 j) 0
      (by show (0 : ℕ) < 2; omega) S2 _ rfl rfl 0 rfl (ix1 (⟨j.val, h⟩ : Fin 2))
      (fun d hd => match d, hd with
        | ⟨0, _⟩, hd => absurd rfl hd)
      (Nat.zero_add _)
  · rw [dif_neg h]
    exact concatenate_apply_piece (t := S3) (0 : Fin 1) _ _ (ix1 j) 1
      (by show (1 : ℕ) < 2; omega) S1 _ rfl rfl 2 rfl (ix1 (0 : Fin 1))
      (fun d hd => match d, hd with
        | ⟨0, _⟩, hd => absurd rfl hd)
      (by show 2 + 0 = j.val; omega)

end Cert.KernelIdeal.Hand

end
-- ==== Proof.KernelValue.lean ====
/-
  What the kernel program returns, as a function of its twelve arguments.

  The result array is the row specification of the operand arrays row by row; each operand array is a
  re-laying of the arguments (the frames flattened so that row a·2048 + b is frame (a, b); the scalars'
  columns the reward, the action as a float, the noise; the layer matrices transposed; the heads
  stacked); and the returned buffer is the result array reshaped, entry (a, b, j) being entry
  (a·2048 + b, j).  So entry (a, b, j) of the returned buffer is `resultOf` of the arguments.
-/
import proofs.«169553_j53635551592612_2_alg».proof.Proof.IdealArray
import proofs.«169553_j53635551592612_2_alg».proof.Proof.IdealOperands

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx Cert.RowSpec
open Idealize.ShloMosaic.Pipeline (Dat Cfg Window)

variable (m : (ℓ : Loc nD τ sig) → Buf (Elt Ideal) ℓ) (ρ : Dev nD → PrngReg)

/-- The row specification depends on its data entry by entry. -/
theorem rowOut_congr {x x' : Fin 512 → EReal} {rew rew' act act' noise noise' : EReal}
    {w1 w1' : Fin 400 → Fin 512 → EReal} {b1 b1' : Fin 400 → EReal} {w2 w2' : Fin 300 → Fin 400 → EReal} {b2 b2' : Fin 300 → EReal}
    {wh wh' : Fin 3 → Fin 302 → EReal} {bh bh' : Fin 3 → EReal}
    (hx : ∀ k, x k = x' k) (hrew : rew = rew') (hact : act = act') (hnoise : noise = noise')
    (hw1 : ∀ a k, w1 a k = w1' a k) (hb1 : ∀ a, b1 a = b1' a) (hw2 : ∀ j a, w2 j a = w2' j a) (hb2 : ∀ j, b2 j = b2' j)
    (hwh : ∀ j k, wh j k = wh' j k) (hbh : ∀ j, bh j = bh' j) (j : Fin 4) :
    rowOut x rew act noise w1 b1 w2 b2 wh bh j = rowOut x' rew' act' noise' w1' b1' w2' b2' wh' bh' j := by
  obtain rfl : x = x' := funext hx
  subst hrew hact hnoise
  obtain rfl : w1 = w1' := funext fun a => funext (hw1 a)
  obtain rfl : b1 = b1' := funext hb1
  obtain rfl : w2 = w2' := funext fun j => funext (hw2 j)
  obtain rfl : b2 = b2' := funext hb2
  obtain rfl : wh = wh' := funext fun j => funext (hwh j)
  obtain rfl : bh = bh' := funext hbh
  rfl

/-- Row a·2048 + b of the result array, in terms of the arguments. -/
theorem wholeOut_at (c : Dev nD) (a : Fin 64) (b : Fin 2048) (j : Fin 4) :
    wholeOut (V m c main_v0) (V m c main_v7) (V m c main_v8) (V m c main_v14) (V m c main_v9) (V m c main_v15) (V m c main_v11) (V m c main_v13) (ix2 (flatRow a b) j)
      = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix3 a b j) := by
  show rowOut (fun k => V m c main_v0 (ix2 (flatRow a b) k)) (V m c main_v7 (ix2 (flatRow a b) (0 : Fin 3))) (V m c main_v7 (ix2 (flatRow a b) (1 : Fin 3)))
      (V m c main_v7 (ix2 (flatRow a b) (2 : Fin 3))) (fun u k => V m c main_v8 (ix2 k u)) (fun u => V m c main_v14 (ix2 (0 : Fin 1) u))
      (fun q u => V m c main_v9 (ix2 u q)) (fun q => V m c main_v15 (ix2 (0 : Fin 1) q)) (fun q k => V m c main_v11 (ix2 k q))
      (fun q => V m c main_v13 (ix2 (0 : Fin 1) q)) j
    = rowOut (fun k => m ((c.tc : Thread nD τ).loc main_arg0) (ix3 a b k)) (m ((c.tc : Thread nD τ).loc main_arg1) (ix2 a b))
      (FloatOps.sitofp (F := Ideal) .f32 (m ((c.tc : Thread nD τ).loc main_arg2) (ix2 a b))) (m ((c.tc : Thread nD τ).loc main_arg3) (ix1 (flatRow a b)))
      (fun u k => m ((c.tc : Thread nD τ).loc main_arg4) (ix2 u k)) (fun u => m ((c.tc : Thread nD τ).loc main_arg5) (ix1 u)) (fun q u => m ((c.tc : Thread nD τ).loc main_arg6) (ix2 q u)) (fun q => m ((c.tc : Thread nD τ).loc main_arg7) (ix1 q))
      (stackW (fun q k => m ((c.tc : Thread nD τ).loc main_arg8) (ix2 q k)) (fun k => m ((c.tc : Thread nD τ).loc main_arg10) (ix2 0 k))) (stackB (fun q => m ((c.tc : Thread nD τ).loc main_arg9) (ix1 q)) (m ((c.tc : Thread nD τ).loc main_arg11) (ix1 0))) j
  exact rowOut_congr (fun k => opd_frame m c a b k) (opd_reward m c a b) (opd_action m c a b) (opd_noise m c a b)
    (fun u k => opd_w1 m c k u) (fun u => opd_b1 m c u) (fun q u => opd_w2 m c u q) (fun q => opd_b2 m c q)
    (fun q k => opd_wh m c k q) (fun q => opd_bh m c q) j

/-- The returned buffer, entry by entry. -/
theorem kernel_value (c : Dev nD) :
    (Pipeline.afterTail₀ cfgs (dats m) 0 (V0 m) [hostOps1] c main_v17 : S64x2048x4.Idx → EReal)
      = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [tail_result]
  funext i
  obtain ⟨a, b, j, rfl⟩ : ∃ (a : Fin 64) (b : Fin 2048) (j : Fin 4), i = ix3 a b j := ⟨i 0, i 1, i 2, eq_ix3 i⟩
  rw [shapeCast_apply _ shapeCasts_S131072x4_S64x2048x4 (ix3 a b j) (ix2 (flatRow a b) j)
    (by rw [Shape.rowMajor_val_two, Shape.rowMajor_val_three]; rfl)]
  exact wholeOut_at m c a b j

/-- The kernel program's run with its result named: every weakly fair execution terminates without a fault,
    the returned buffer at `resultOf` of the arguments, the arguments unchanged. -/
theorem value_run : θ_run defs (onTc (τ := τ) (main (F := Ideal))) ⟨m, fun _ => 0, ρ⟩ (fun r => ∀ c : Dev nD,
      r.2.mem ((c.tc : Thread nD τ).loc main_v17) = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
      ((h c).2 main_v17 (Pipeline.mem_restRefs_of main_v17 (by decide) (by decide))).trans (kernel_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run_main m ρ)

end Cert.KernelIdeal.Hand

end
-- ==== Proof.RefRow.lean ====
/-
  The reference program's last stage is the row specification, index by index.

  The reference flattens the [64, 2048] rows to 131072, so every stage is read at row a · 2048 + b.  Stage by
  stage: the first dense layer with its rectifier is `hidden1` of the row's 512 frame entries; the second is
  `hidden2` of those; the joined vector (300 units, the clipped reward, the action as a float) is `core`; the
  policy's two heads and the baseline's one are `head` over the stacked weights; 1 / (1 + e^(-x)) of the
  policy's heads is the logistic function; the sample is the first plus the second times the noise; and the
  last join lays the four entries of the row side by side.
-/
import proofs.«169553_j53635551592612_2_alg».proof.Proof.Gen.ReferenceIdeal.Read
import proofs.«169553_j53635551592612_2_alg».proof.Proof.RowSpec
import Idealize.ShloMosaic.Lib.IdealHost
import Idealize.ShloMosaic.Lib.ValueLayout

noncomputable section
namespace Cert.Proof.RefRow
open Cert.ReferenceIdeal Cert.ReferenceIdeal.Read Idealize.ShloMosaic Idealize.ShloMosaic.ValueIdx Cert.RowSpec

section Rows

variable
    (x0 : (⟨S64x2048x512, .f32⟩ : BufTy).Contents (Elt Ideal)) (x1 : (⟨S64x2048, .f32⟩ : BufTy).Contents (Elt Ideal))
    (x2 : (⟨S64x2048, .i32⟩ : BufTy).Contents (Elt Ideal)) (x3 : (⟨S131072, .f32⟩ : BufTy).Contents (Elt Ideal))
    (x4 : (⟨S400x512, .f32⟩ : BufTy).Contents (Elt Ideal)) (x5 : (⟨S400, .f32⟩ : BufTy).Contents (Elt Ideal))
    (x6 : (⟨S300x400, .f32⟩ : BufTy).Contents (Elt Ideal)) (x7 : (⟨S300, .f32⟩ : BufTy).Contents (Elt Ideal))
    (x8 : (⟨S2x302, .f32⟩ : BufTy).Contents (Elt Ideal)) (x9 : (⟨S2, .f32⟩ : BufTy).Contents (Elt Ideal))
    (x10 : (⟨S1x302, .f32⟩ : BufTy).Contents (Elt Ideal)) (x11 : (⟨S1, .f32⟩ : BufTy).Contents (Elt Ideal))

/-! ## The row's quantities, as the specification composes them -/

/-- The first layer of row (a, b). -/
def h1Row (a : Fin 64) (b : Fin 2048) : Fin 400 → EReal :=
  hidden1 (fun k => x0 (ix3 a b k)) (fun u k => x4 (ix2 u k)) (fun u => x5 (ix1 u))

/-- The second layer of row (a, b). -/
def h2Row (a : Fin 64) (b : Fin 2048) : Fin 300 → EReal :=
  hidden2 (h1Row x0 x4 x5 a b) (fun j u => x6 (ix2 j u)) (fun j => x7 (ix1 j))

/-- The core vector of row (a, b). -/
def coreRow (a : Fin 64) (b : Fin 2048) : Fin 302 → EReal :=
  core (h2Row x0 x4 x5 x6 x7 a b) (x1 (ix2 a b)) (FloatOps.sitofp (F := Ideal) .f32 (x2 (ix2 a b)))

/-- The three heads of row (a, b). -/
def headRow (a : Fin 64) (b : Fin 2048) : Fin 3 → EReal :=
  head (coreRow x0 x1 x2 x4 x5 x6 x7 a b) (stackW (fun j k => x8 (ix2 j k)) (fun k => x10 (ix2 0 k)))
    (stackB (fun j => x9 (ix1 j)) (x11 (ix1 0)))

/-! ## The first layer -/

/-- Entry k of flattened row a · 2048 + b is entry (a, b, k) of the frame. -/
theorem idx_frame (a : Fin 64) (b : Fin 2048) (u : Fin 400) (k : Fin 512) :
    idx_main_v0 (lidx_main_v2 (ix2 (flatRow a b) u) k) = ix3 a b k :=
  funext fun d => Fin.ext (by
    match d with
    | ⟨0, _⟩ => show ((a.val * 2048 + b.val) * 512 + k.val) / 1048576 = a.val; omega
    | ⟨1, _⟩ => show ((a.val * 2048 + b.val) * 512 + k.val) / 512 % 2048 = b.val; omega
    | ⟨2, _⟩ => show ((a.val * 2048 + b.val) * 512 + k.val) % 512 = k.val; omega)

theorem idx_w1 (r : Fin 131072) (u : Fin 400) (k : Fin 512) :
    idx_main_v1 (ridx_main_v2 (ix2 r u) k) = ix2 u k :=
  funext fun d => by match d with | ⟨0, _⟩ => rfl | ⟨1, _⟩ => rfl

theorem idx_b1 (r : Fin 131072) (u : Fin 400) : idx_main_v3 (idx_main_v4 (ix2 r u)) = ix1 u :=
  funext fun d => by match d with | ⟨0, _⟩ => rfl

/-- The first dense layer and its rectifier, at row a · 2048 + b and unit u. -/
theorem v6_row (a : Fin 64) (b : Fin 2048) (u : Fin 400) :
    val_main_v6 (F := Ideal) x0 x4 x5 (ix2 (flatRow a b) u) = h1Row x0 x4 x5 a b u := by
  rw [val_main_v6_apply, val_main_v5_apply, val_main_v2_apply, val_main_v4_apply, val_main_v3_apply,
    val_main_call0_v0_apply, val_main_call0_cst_apply, idx_b1]
  have hs : ∑ k : Fin 512, val_main_v0 (F := Ideal) x0 (lidx_main_v2 (ix2 (flatRow a b) u) k)
        * val_main_v1 (F := Ideal) x4 (ridx_main_v2 (ix2 (flatRow a b) u) k)
      = ∑ k : Fin 512, x0 (ix3 a b k) * x4 (ix2 u k) :=
    Finset.sum_congr rfl fun k _ => by rw [val_main_v0_apply, val_main_v1_apply, idx_frame, idx_w1]
  rw [hs]
  rfl

/-! ## The second layer -/

theorem idx_l8 (r : Fin 131072) (j : Fin 300) (u : Fin 400) : lidx_main_v8 (ix2 r j) u = ix2 r u :=
  funext fun d => by match d with | ⟨0, _⟩ => rfl | ⟨1, _⟩ => rfl

theorem idx_w2 (r : Fin 131072) (j : Fin 300) (u : Fin 400) :
    idx_main_v7 (ridx_main_v8 (ix2 r j) u) = ix2 j u :=
  funext fun d => by match d with | ⟨0, _⟩ => rfl | ⟨1, _⟩ => rfl

theorem idx_b2 (r : Fin 131072) (j : Fin 300) : idx_main_v9 (idx_main_v10 (ix2 r j)) = ix1 j :=
  funext fun d => by match d with | ⟨0, _⟩ => rfl

/-- The second dense layer and its rectifier, at row a · 2048 + b and unit j. -/
theorem v12_row (a : Fin 64) (b : Fin 2048) (j : Fin 300) :
    val_main_v12 (F := Ideal) x0 x4 x5 x6 x7 (ix2 (flatRow a b) j) = h2Row x0 x4 x5 x6 x7 a b j := by
  rw [val_main_v12_apply, val_main_v11_apply, val_main_v8_apply, val_main_v10_apply, val_main_v9_apply,
    val_main_call1_v0_apply, val_main_call1_cst_apply, idx_b2]
  have hs : ∑ u : Fin 400, val_main_v6 (F := Ideal) x0 x4 x5 (lidx_main_v8 (ix2 (flatRow a b) j) u)
        * val_main_v7 (F := Ideal) x6 (ridx_main_v8 (ix2 (flatRow a b) j) u)
      = ∑ u : Fin 400, h1Row x0 x4 x5 a b u * x6 (ix2 j u) :=
    Finset.sum_congr rfl fun u _ => by rw [val_main_v7_apply, idx_l8, v6_row, idx_w2]
  rw [hs]
  rfl

/-! ## The core vector: the second layer, the clipped reward, the action -/

theorem idx_rew (a : Fin 64) (b : Fin 2048) : idx_main_v16 (ix2 (flatRow a b) (0 : Fin 1)) = ix2 a b :=
  funext fun d => Fin.ext (by
    match d with
    | ⟨0, _⟩ => show ((a.val * 2048 + b.val) * 1 + 0) / 2048 = a.val; omega
    | ⟨1, _⟩ => show ((a.val * 2048 + b.val) * 1 + 0) % 2048 = b.val; omega)

theorem idx_act (a : Fin 64) (b : Fin 2048) : idx_main_v13 (ix2 (flatRow a b) (0 : Fin 1)) = ix2 a b :=
  funext fun d => Fin.ext (by
    match d with
    | ⟨0, _⟩ => show ((a.val * 2048 + b.val) * 1 + 0) / 2048 = a.val; omega
    | ⟨1, _⟩ => show ((a.val * 2048 + b.val) * 1 + 0) % 2048 = b.val; omega)

/-- The reward of row (a, b), clipped to [-1, 1]. -/
theorem v16_row (a : Fin 64) (b : Fin 2048) :
    val_main_v16 (F := Ideal) x1 (ix2 (flatRow a b) (0 : Fin 1)) = clipped (x1 (ix2 a b)) := by
  rw [val_main_v16_apply, val_main_v15_apply, val_main_call2_v4_apply, val_main_call2_v3_apply,
    val_main_cst_0_apply, val_main_call2_v2_apply, val_main_call2_v1_apply, val_main_call2_v0_apply,
    val_main_cst_apply, idx_rew]
  rfl

/-- The action of row (a, b), as a float. -/
theorem v14_row (a : Fin 64) (b : Fin 2048) :
    val_main_v14 (F := Ideal) x2 (ix2 (flatRow a b) (0 : Fin 1))
      = FloatOps.sitofp (F := Ideal) .f32 (x2 (ix2 a b)) := by
  rw [val_main_v14_apply, val_main_v13_apply, idx_act]

/-- A column below 300 of the joined vector is the second layer's unit. -/
theorem v17_unit (r : Fin 131072) (c : Fin 302) (h : c.val < 300) :
    val_main_v17 (F := Ideal) x0 x1 x2 x4 x5 x6 x7 (ix2 r c)
      = val_main_v12 (F := Ideal) x0 x4 x5 x6 x7 (ix2 r ⟨c.val, h⟩) := by
  unfold val_main_v17
  exact concatenate_apply_piece _ _ _ (ix2 r c) 0 (by show (0 : Nat) < 3; omega) S131072x300 _ rfl rfl 0 rfl (ix2 r ⟨c.val, h⟩)
    (fun d hd => match d, hd with
      | ⟨0, _⟩, _ => rfl
      | ⟨1, _⟩, hd => absurd rfl hd)
    (Nat.zero_add _)

/-- Column 300 of the joined vector is the clipped reward's one column. -/
theorem v17_rew (r : Fin 131072) (c : Fin 302) (h : c.val = 300) :
    val_main_v17 (F := Ideal) x0 x1 x2 x4 x5 x6 x7 (ix2 r c)
      = val_main_v16 (F := Ideal) x1 (ix2 r (0 : Fin 1)) := by
  unfold val_main_v17
  exact concatenate_apply_piece _ _ _ (ix2 r c) 1 (by show (1 : Nat) < 3; omega) S131072x1 _ rfl rfl 300 rfl (ix2 r (0 : Fin 1))
    (fun d hd => match d, hd with
      | ⟨0, _⟩, _ => rfl
      | ⟨1, _⟩, hd => absurd rfl hd)
    (by show 300 + 0 = c.val; omega)

/-- Column 301 of the joined vector is the action's one column. -/
theorem v17_act (r : Fin 131072) (c : Fin 302) (h : c.val = 301) :
    val_main_v17 (F := Ideal) x0 x1 x2 x4 x5 x6 x7 (ix2 r c)
      = val_main_v14 (F := Ideal) x2 (ix2 r (0 : Fin 1)) := by
  unfold val_main_v17
  exact concatenate_apply_piece _ _ _ (ix2 r c) 2 (by show (2 : Nat) < 3; omega) S131072x1 _ rfl rfl 301 rfl (ix2 r (0 : Fin 1))
    (fun d hd => match d, hd with
      | ⟨0, _⟩, _ => rfl
      | ⟨1, _⟩, hd => absurd rfl hd)
    (by show 301 + 0 = c.val; omega)

/-- The joined vector at row a · 2048 + b is the core vector. -/
theorem v17_row (a : Fin 64) (b : Fin 2048) (c : Fin 302) :
    val_main_v17 (F := Ideal) x0 x1 x2 x4 x5 x6 x7 (ix2 (flatRow a b) c)
      = coreRow x0 x1 x2 x4 x5 x6 x7 a b c := by
  unfold coreRow core
  by_cases h : c.val < 300
  · rw [dif_pos h, v17_unit x0 x1 x2 x4 x5 x6 x7 _ c h, v12_row]
  · rw [dif_neg h]
    by_cases h' : c.val = 300
    · rw [if_pos h', v17_rew x0 x1 x2 x4 x5 x6 x7 _ c h', v16_row]
    · rw [if_neg h', v17_act x0 x1 x2 x4 x5 x6 x7 _ c (by omega), v14_row]

/-! ## The three heads -/

theorem stackW_policy (wp : Fin 2 → Fin 302 → EReal) (wb : Fin 302 → EReal) (j : Fin 2) (k : Fin 302) :
    stackW wp wb ⟨j.val, by omega⟩ k = wp j k := by
  unfold stackW
  rw [dif_pos (show (⟨j.val, by omega⟩ : Fin 3).val < 2 from j.isLt)]

theorem stackB_policy (bp : Fin 2 → EReal) (bb : EReal) (j : Fin 2) :
    stackB bp bb ⟨j.val, by omega⟩ = bp j := by
  unfold stackB
  rw [dif_pos (show (⟨j.val, by omega⟩ : Fin 3).val < 2 from j.isLt)]

theorem stackW_baseline (wp : Fin 2 → Fin 302 → EReal) (wb : Fin 302 → EReal) (k : Fin 302) :
    stackW wp wb 2 k = wb k := by
  unfold stackW
  rw [dif_neg (show ¬(2 : Fin 3).val < 2 by decide)]

theorem stackB_baseline (bp : Fin 2 → EReal) (bb : EReal) : stackB bp bb 2 = bb := by
  unfold stackB
  rw [dif_neg (show ¬(2 : Fin 3).val < 2 by decide)]

theorem idx_l19 (r : Fin 131072) (j : Fin 2) (k : Fin 302) : lidx_main_v19 (ix2 r j) k = ix2 r k :=
  funext fun d => by match d with | ⟨0, _⟩ => rfl | ⟨1, _⟩ => rfl

theorem idx_wp (r : Fin 131072) (j : Fin 2) (k : Fin 302) :
    idx_main_v18 (ridx_main_v19 (ix2 r j) k) = ix2 j k :=
  funext fun d => by match d with | ⟨0, _⟩ => rfl | ⟨1, _⟩ => rfl

theorem idx_bp (r : Fin 131072) (j : Fin 2) : idx_main_v20 (idx_main_v21 (ix2 r j)) = ix1 j :=
  funext fun d => by match d with | ⟨0, _⟩ => rfl

/-- The policy's head j (0 or 1) at row a · 2048 + b. -/
theorem v22_row (a : Fin 64) (b : Fin 2048) (j : Fin 2) :
    val_main_v22 (F := Ideal) x0 x1 x2 x4 x5 x6 x7 x8 x9 (ix2 (flatRow a b) j)
      = headRow x0 x1 x2 x4 x5 x6 x7 x8 x9 x10 x11 a b ⟨j.val, by omega⟩ := by
  rw [val_main_v22_apply, val_main_v19_apply, val_main_v21_apply, val_main_v20_apply, idx_bp]
  have hs : ∑ k : Fin 302, val_main_v17 (F := Ideal) x0 x1 x2 x4 x5 x6 x7 (lidx_main_v19 (ix2 (flatRow a b) j) k)
        * val_main_v18 (F := Ideal) x8 (ridx_main_v19 (ix2 (flatRow a b) j) k)
      = ∑ k : Fin 302, coreRow x0 x1 x2 x4 x5 x6 x7 a b k * x8 (ix2 j k) :=
    Finset.sum_congr rfl fun k _ => by rw [val_main_v18_apply, idx_l19, v17_row, idx_wp]
  rw [hs]
  unfold headRow head
  rw [stackB_policy]
  simp only [stackW_policy]
  rfl

theorem idx_l30 (r : Fin 131072) (k : Fin 302) : lidx_main_v30 (ix2 r (0 : Fin 1)) k = ix2 r k :=
  funext fun d => by match d with | ⟨0, _⟩ => rfl | ⟨1, _⟩ => rfl

theorem idx_wb (r : Fin 131072) (k : Fin 302) :
    idx_main_v29 (ridx_main_v30 (ix2 r (0 : Fin 1)) k) = ix2 (0 : Fin 1) k :=
  funext fun d => by match d with | ⟨0, _⟩ => rfl | ⟨1, _⟩ => rfl

theorem idx_bb (r : Fin 131072) : idx_main_v31 (idx_main_v32 (ix2 r (0 : Fin 1))) = ix1 (0 : Fin 1) :=
  funext fun d => by match d with | ⟨0, _⟩ => rfl

/-- The baseline's head at row a · 2048 + b. -/
theorem v33_row (a : Fin 64) (b : Fin 2048) :
    val_main_v33 (F := Ideal) x0 x1 x2 x4 x5 x6 x7 x10 x11 (ix2 (flatRow a b) (0 : Fin 1))
      = headRow x0 x1 x2 x4 x5 x6 x7 x8 x9 x10 x11 a b 2 := by
  rw [val_main_v33_apply, val_main_v30_apply, val_main_v32_apply, val_main_v31_apply, idx_bb]
  have hs : ∑ k : Fin 302, val_main_v17 (F := Ideal) x0 x1 x2 x4 x5 x6 x7 (lidx_main_v30 (ix2 (flatRow a b) (0 : Fin 1)) k)
        * val_main_v29 (F := Ideal) x10 (ridx_main_v30 (ix2 (flatRow a b) (0 : Fin 1)) k)
      = ∑ k : Fin 302, coreRow x0 x1 x2 x4 x5 x6 x7 a b k * x10 (ix2 (0 : Fin 1) k) :=
    Finset.sum_congr rfl fun k _ => by rw [val_main_v29_apply, idx_l30, v17_row, idx_wb]
  rw [hs]
  unfold headRow head
  rw [stackB_baseline]
  simp only [stackW_baseline]
  rfl

/-! ## The logistic function of the policy's heads, and the sample -/

/-- 1 / (1 + e^(-x)) of the policy's head j is its logistic function. -/
theorem v28_row (a : Fin 64) (b : Fin 2048) (j : Fin 2) :
    val_main_v28 (F := Ideal) x0 x1 x2 x4 x5 x6 x7 x8 x9 (ix2 (flatRow a b) j)
      = Ideal.logistic (headRow x0 x1 x2 x4 x5 x6 x7 x8 x9 x10 x11 a b ⟨j.val, by omega⟩) := by
  rw [val_main_v28_apply, val_main_v27_apply, val_main_cst_2_apply, val_main_v26_apply, val_main_v25_apply,
    val_main_cst_1_apply, val_main_v24_apply, val_main_v23_apply, v22_row x0 x1 x2 x4 x5 x6 x7 x8 x9 x10 x11]
  show Ideal.div (Ideal.ofBits .f32 0x3F800000#32) (Ideal.ofBits .f32 0x3F800000#32
    + Ideal.exp (-(headRow x0 x1 x2 x4 x5 x6 x7 x8 x9 x10 x11 a b ⟨j.val, by omega⟩))) = _
  rw [Ideal.ofBits_one_f32]
  rfl

theorem idx_s0 (r : Fin 131072) : idx_main_v34 (idx_main_v35 (ix1 r)) = ix2 r (0 : Fin 2) :=
  funext fun d => Fin.ext (by
    match d with
    | ⟨0, _⟩ => show r.val / 1 = r.val; omega
    | ⟨1, _⟩ => rfl)

theorem idx_s1 (r : Fin 131072) : idx_main_v36 (idx_main_v37 (ix1 r)) = ix2 r (1 : Fin 2) :=
  funext fun d => Fin.ext (by
    match d with
    | ⟨0, _⟩ => show r.val / 1 = r.val; omega
    | ⟨1, _⟩ => rfl)

/-- The sample of row a · 2048 + b: the first logistic value plus the second times the noise. -/
theorem v39_row (a : Fin 64) (b : Fin 2048) :
    val_main_v39 (F := Ideal) x0 x1 x2 x3 x4 x5 x6 x7 x8 x9 (ix1 (flatRow a b))
      = Ideal.logistic (headRow x0 x1 x2 x4 x5 x6 x7 x8 x9 x10 x11 a b 0)
        + Ideal.logistic (headRow x0 x1 x2 x4 x5 x6 x7 x8 x9 x10 x11 a b 1) * x3 (ix1 (flatRow a b)) := by
  rw [val_main_v39_apply, val_main_v35_apply, val_main_v34_apply, val_main_v38_apply, val_main_v37_apply,
    val_main_v36_apply, idx_s0, idx_s1, v28_row x0 x1 x2 x4 x5 x6 x7 x8 x9 x10 x11,
    v28_row x0 x1 x2 x4 x5 x6 x7 x8 x9 x10 x11]
  rfl

/-! ## The last join: the four entries of the row side by side -/

theorem idx_o01 (a : Fin 64) (b : Fin 2048) (j : Fin 2) : idx_main_v40 (ix3 a b j) = ix2 (flatRow a b) j :=
  funext fun d => Fin.ext (by
    match d with
    | ⟨0, _⟩ => show ((a.val * 2048 + b.val) * 2 + j.val) / 2 = a.val * 2048 + b.val; omega
    | ⟨1, _⟩ => show ((a.val * 2048 + b.val) * 2 + j.val) % 2 = j.val; omega)

theorem idx_o2 (a : Fin 64) (b : Fin 2048) : idx_main_v41 (ix3 a b (0 : Fin 1)) = ix2 (flatRow a b) (0 : Fin 1) :=
  funext fun d => Fin.ext (by
    match d with
    | ⟨0, _⟩ => show ((a.val * 2048 + b.val) * 1 + 0) / 1 = a.val * 2048 + b.val; omega
    | ⟨1, _⟩ => rfl)

theorem idx_o3 (a : Fin 64) (b : Fin 2048) : idx_main_v42 (ix3 a b (0 : Fin 1)) = ix1 (flatRow a b) :=
  funext fun d => Fin.ext (by
    match d with
    | ⟨0, _⟩ => show (a.val * 2048 + b.val) * 1 + 0 = a.val * 2048 + b.val; omega)

/-- Entries 0 and 1 of the joined row are the logistic values' two columns. -/
theorem v43_policy (a : Fin 64) (b : Fin 2048) (j : Fin 4) (h : j.val < 2) :
    val_main_v43 (F := Ideal) x0 x1 x2 x3 x4 x5 x6 x7 x8 x9 x10 x11 (ix3 a b j)
      = val_main_v40 (F := Ideal) x0 x1 x2 x4 x5 x6 x7 x8 x9 (ix3 a b ⟨j.val, h⟩) := by
  unfold val_main_v43
  exact concatenate_apply_piece _ _ _ (ix3 a b j) 0 (by show (0 : Nat) < 3; omega) S64x2048x2 _ rfl rfl 0 rfl
    (ix3 a b ⟨j.val, h⟩)
    (fun d hd => match d, hd with
      | ⟨0, _⟩, _ => rfl
      | ⟨1, _⟩, _ => rfl
      | ⟨2, _⟩, hd => absurd rfl hd)
    (Nat.zero_add _)

/-- Entry 2 of the joined row is the baseline's one column. -/
theorem v43_baseline (a : Fin 64) (b : Fin 2048) (j : Fin 4) (h : j.val = 2) :
    val_main_v43 (F := Ideal) x0 x1 x2 x3 x4 x5 x6 x7 x8 x9 x10 x11 (ix3 a b j)
      = val_main_v41 (F := Ideal) x0 x1 x2 x4 x5 x6 x7 x10 x11 (ix3 a b (0 : Fin 1)) := by
  unfold val_main_v43
  exact concatenate_apply_piece _ _ _ (ix3 a b j) 1 (by show (1 : Nat) < 3; omega) S64x2048x1 _ rfl rfl 2 rfl
    (ix3 a b (0 : Fin 1))
    (fun d hd => match d, hd with
      | ⟨0, _⟩, _ => rfl
      | ⟨1, _⟩, _ => rfl
      | ⟨2, _⟩, hd => absurd rfl hd)
    (by show 2 + 0 = j.val; omega)

/-- Entry 3 of the joined row is the sample's one column. -/
theorem v43_sample (a : Fin 64) (b : Fin 2048) (j : Fin 4) (h : j.val = 3) :
    val_main_v43 (F := Ideal) x0 x1 x2 x3 x4 x5 x6 x7 x8 x9 x10 x11 (ix3 a b j)
      = val_main_v42 (F := Ideal) x0 x1 x2 x3 x4 x5 x6 x7 x8 x9 (ix3 a b (0 : Fin 1)) := by
  unfold val_main_v43
  exact concatenate_apply_piece _ _ _ (ix3 a b j) 2 (by show (2 : Nat) < 3; omega) S64x2048x1 _ rfl rfl 3 rfl
    (ix3 a b (0 : Fin 1))
    (fun d hd => match d, hd with
      | ⟨0, _⟩, _ => rfl
      | ⟨1, _⟩, _ => rfl
      | ⟨2, _⟩, hd => absurd rfl hd)
    (by show 3 + 0 = j.val; omega)

/-- The joined row at (a, b) is `outOfHeads` of the row's heads and noise. -/
theorem v43_row (a : Fin 64) (b : Fin 2048) (j : Fin 4) :
    val_main_v43 (F := Ideal) x0 x1 x2 x3 x4 x5 x6 x7 x8 x9 x10 x11 (ix3 a b j)
      = outOfHeads (headRow x0 x1 x2 x4 x5 x6 x7 x8 x9 x10 x11 a b) (x3 (ix1 (flatRow a b))) j := by
  unfold outOfHeads
  by_cases h0 : j.val = 0
  · rw [if_pos h0, v43_policy x0 x1 x2 x3 x4 x5 x6 x7 x8 x9 x10 x11 a b j (by omega), val_main_v40_apply, idx_o01,
      v28_row x0 x1 x2 x4 x5 x6 x7 x8 x9 x10 x11]
    exact congrArg (fun t => Ideal.logistic (headRow x0 x1 x2 x4 x5 x6 x7 x8 x9 x10 x11 a b t)) (Fin.ext h0)
  · rw [if_neg h0]
    by_cases h1 : j.val = 1
    · rw [if_pos h1, v43_policy x0 x1 x2 x3 x4 x5 x6 x7 x8 x9 x10 x11 a b j (by omega), val_main_v40_apply, idx_o01,
        v28_row x0 x1 x2 x4 x5 x6 x7 x8 x9 x10 x11]
      exact congrArg (fun t => Ideal.logistic (headRow x0 x1 x2 x4 x5 x6 x7 x8 x9 x10 x11 a b t)) (Fin.ext h1)
    · rw [if_neg h1]
      by_cases h2 : j.val = 2
      · rw [if_pos h2, v43_baseline x0 x1 x2 x3 x4 x5 x6 x7 x8 x9 x10 x11 a b j h2, val_main_v41_apply, idx_o2,
          v33_row x0 x1 x2 x4 x5 x6 x7 x8 x9 x10 x11]
      · rw [if_neg h2, v43_sample x0 x1 x2 x3 x4 x5 x6 x7 x8 x9 x10 x11 a b j (by omega), val_main_v42_apply, idx_o3,
          v39_row x0 x1 x2 x3 x4 x5 x6 x7 x8 x9 x10 x11]

end Rows

/-- **The reference's last stage is the row specification**, index by index. -/
theorem ref_result
    (x0 : (⟨S64x2048x512, .f32⟩ : BufTy).Contents (Elt Ideal)) (x1 : (⟨S64x2048, .f32⟩ : BufTy).Contents (Elt Ideal))
    (x2 : (⟨S64x2048, .i32⟩ : BufTy).Contents (Elt Ideal)) (x3 : (⟨S131072, .f32⟩ : BufTy).Contents (Elt Ideal))
    (x4 : (⟨S400x512, .f32⟩ : BufTy).Contents (Elt Ideal)) (x5 : (⟨S400, .f32⟩ : BufTy).Contents (Elt Ideal))
    (x6 : (⟨S300x400, .f32⟩ : BufTy).Contents (Elt Ideal)) (x7 : (⟨S300, .f32⟩ : BufTy).Contents (Elt Ideal))
    (x8 : (⟨S2x302, .f32⟩ : BufTy).Contents (Elt Ideal)) (x9 : (⟨S2, .f32⟩ : BufTy).Contents (Elt Ideal))
    (x10 : (⟨S1x302, .f32⟩ : BufTy).Contents (Elt Ideal)) (x11 : (⟨S1, .f32⟩ : BufTy).Contents (Elt Ideal))
    (i : S64x2048x4.Idx) :
    val_main_v43 (F := Ideal) x0 x1 x2 x3 x4 x5 x6 x7 x8 x9 x10 x11 i = resultOf x0 x1 x2 x3 x4 x5 x6 x7 x8 x9 x10 x11 i := by
  obtain ⟨a, b, j, rfl⟩ : ∃ (a : Fin 64) (b : Fin 2048) (j : Fin 4), i = ix3 a b j := ⟨i 0, i 1, i 2, eq_ix3 i⟩
  rw [v43_row]
  rfl
end Cert.Proof.RefRow
end
-- ==== Proof.Bridge.lean ====
/-
  The two idealized programs agree.  From memories that agree on the twelve arguments, the kernel
  program returns `resultOf` of its arguments (its run read off the 32 write-backs and the host lines
  around them) and the reference returns `resultOf` of its own (its run read one operation at a time):
  one function of equal arguments.  No step of either reading uses that the inputs are finite: both
  sides are the same sums of the same products in the same order, the same maxima and minima against
  the same constants, and 1 / (1 + e^(-x)) on both sides.
-/
import proofs.«169553_j53635551592612_2_alg».proof.Defs
import proofs.«169553_j53635551592612_2_alg».proof.Proof.KernelValue
import proofs.«169553_j53635551592612_2_alg».proof.Proof.RefRow
import proofs.«169553_j53635551592612_2_alg».proof.Proof.RefFrame
import proofs.«169553_j53635551592612_2_alg».proof.Proof.Gen.Pre_finite_inputs

noncomputable section

namespace Cert.Proof.Bridge

open Idealize.ShloMosaic Idealize.ShloMosaic.TcCoe Idealize.SL.Sem Cert.RowSpec

theorem algebraic : Cert.algebraic_KernelIdeal_ReferenceIdeal := by
  intro m ρ m' ρ' _ hagree
  refine ⟨fun c => resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v43_eq]
  refine funext fun (i : Cert.ReferenceIdeal.S64x2048x4.Idx) => ?_
  rw [Cert.Proof.RefRow.ref_result, e0, e1, e2, e3, e4, e5, e6, e7, e8, e9, e10, e11]

end Cert.Proof.Bridge

end
-- ==== Proof.lean ====
/-
  A two-layer perceptron with a fused policy/baseline head and a Normal sample, over 131072 rows,
  blocked 4096 rows to a grid point, against the same network written with whole-array operations.

  Frames.  Each program runs to the end without a fault and leaves its twelve arguments as launched:
  the kernel program (word level and idealized alike) through the run of its one region around the
  host lines that prepare the operands and reshape the result; the reference through its straight-line
  run.
  Idealization.  The ideal pass rewrote nothing, so there is nothing to preserve.
  Values.  On the extended reals both programs return, at (a, b, j), the row specification of row
  (a, b): two rectified dense layers of the row's 512 frame entries, the core vector (300 units, the
  reward clipped to [-1, 1], the last action), three heads over it, and σ(head 0), σ(head 1), head 2,
  σ(head 0) + σ(head 1)·noise.
-/
import proofs.«169553_j53635551592612_2_alg».proof.Defs
import proofs.«169553_j53635551592612_2_alg».proof.Proof.BitsRun
import proofs.«169553_j53635551592612_2_alg».proof.Proof.IdealRun
import proofs.«169553_j53635551592612_2_alg».proof.Proof.RefFrame
import proofs.«169553_j53635551592612_2_alg».proof.Proof.Bridge
import proofs.«169553_j53635551592612_2_alg».proof.Proof.Gen.Kernel
import proofs.«169553_j53635551592612_2_alg».proof.Proof.Gen.KernelIdeal
import proofs.«169553_j53635551592612_2_alg».proof.Proof.Gen.ReferenceIdeal
import proofs.«169553_j53635551592612_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.Proof.RefFrame.frame_ri,
    trivial,
    Cert.Proof.Bridge.algebraic⟩

end Cert.Proof

end
